-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 110
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000, .i32⟩
  | .hbm, ⟨59, _⟩ => ⟨S1x1600000, .i32⟩
  | .hbm, ⟨60, _⟩ => ⟨S1600000, .i32⟩
  | .hbm, ⟨61, _⟩ => ⟨S1700000, .i32⟩
  | .hbm, ⟨62, _⟩ => ⟨S1x1600000, .i32⟩
  | .hbm, ⟨63, _⟩ => ⟨S1600000, .i32⟩
  | .hbm, ⟨64, _⟩ => ⟨S1700000, .i32⟩
  | .hbm, ⟨65, _⟩ => ⟨S_, .f32⟩
  | .hbm, ⟨66, _⟩ => ⟨S1700000, .f32⟩
  | .hbm, ⟨67, _⟩ => ⟨S_, .f32⟩
  | .hbm, ⟨68, _⟩ => ⟨S100000, .f32⟩
  | .hbm, ⟨69, _⟩ => ⟨S1700000x1, .i32⟩
  | .hbm, ⟨70, _⟩ => ⟨S100000, .f32⟩
  | .hbm, ⟨71, _⟩ => ⟨S100000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x1, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S1x128, .f32⟩
  | .hbm, ⟨109, _⟩ => ⟨S128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_13 : Ref sig .tc := ⟨.hbm, 91, rfl⟩
abbrev main_v70 : Ref sig .tc := ⟨.hbm, 92, rfl⟩
abbrev main_v71 : Ref sig .tc := ⟨.hbm, 93, rfl⟩
abbrev main_c_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v16 : BitVec 1 := Scalar.cmpi .eq arg0 c19_i32
  let v17 : BitVec 32 := Scalar.extui v16
  let c0_i32_8 : BitVec 32 := 0#32
  let v18 : BitVec 1 := Scalar.cmpi .ne v17 c0_i32_8
  v18

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v82) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000, .i32⟩
  | .hbm, ⟨64, _⟩ => ⟨S1x1600000, .i32⟩
  | .hbm, ⟨65, _⟩ => ⟨S1600000, .i32⟩
  | .hbm, ⟨66, _⟩ => ⟨S1700000, .i32⟩
  | .hbm, ⟨67, _⟩ => ⟨S1x1600000, .i32⟩
  | .hbm, ⟨68, _⟩ => ⟨S1600000, .i32⟩
  | .hbm, ⟨69, _⟩ => ⟨S1700000, .i32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x128, .f32⟩
  | .hbm, ⟨105, _⟩ => ⟨S1700000x1, .f32⟩
  | .hbm, ⟨106, _⟩ => ⟨S1700000x128, .f32⟩
  | .hbm, ⟨107, _⟩ => ⟨S1700000x128, .f32⟩
  | .hbm, ⟨108, _⟩ => ⟨S_, .f32⟩
  | .hbm, ⟨109, _⟩ => ⟨S100000x128, .f32⟩
  | .hbm, ⟨110, _⟩ => ⟨S1700000x1, .i32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S128, .f32⟩
  | .hbm, ⟨117, _⟩ => ⟨S_, .f32⟩
  | .hbm, ⟨118, _⟩ => ⟨S128, .f32⟩
  | .hbm, ⟨119, _⟩ => ⟨S128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KB.ProjectBody.lean ====
/-
  The first projection kernel (region 0), at the contents `V` the region is entered from.

  Every grid point reads its own block of 5000 rows of the node features and the whole 128×128 weight matrix, and writes
  one whole output block: the block's rows times the matrix. So what a point leaves in the output's staging buffer is a
  function of the point's two input blocks alone: the single store's payload, read back.

  Here: the body's run on whole staging buffers (the pieces the output ends with are found by the run), the proof data
  (inputs left as fetched, the output at the payload of the point's input blocks, nothing carried between points), and the
  body obligation at a generic point.
-/
import proofs.«153876_j4595615007018_1_alg».proof.Proof.Gen.Kernel.Launch
import proofs.«153876_j4595615007018_1_alg».proof.Proof.Gen.Kernel.Skeleton
import proofs.«153876_j4595615007018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row block times the first weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0 : View sig .tc .vmem S5000x128 .f32 := (Memref.whole cc0_stg2_0 : Memref sig .tc .vmem S5000x128 .f32).view

set_option maxHeartbeats 2000000 in
/-- The body on whole staging buffers — the inputs at their contents, the output at anything — runs to its return leaving
    the inputs as they were and the output with the pieces the run finds written. -/
noncomputable def kernelRun0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%dO, %fO, -, HO⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact HO

/-- The run's pieces tile the output block, so they cover it. -/
theorem cover0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (y : S5000x128.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S5000x128.size (by sl_kernel_rfl) y

/-- What the body leaves in the output's staging buffer: its pieces read back. -/
def out0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) : Vec F S5000x128 .f32 :=
  VO0.read (Elt F) (VO0.writes (Elt F) VO0.junk (kernelRun0 c i arg1 harg1 arg2 harg2 arg3 harg3 x0 x1).1)

/-- The output block point `t` leaves: the body's result on the point's staging buffers and input blocks. -/
def outAt0 (c : Dev nD) (t : Fin cfg0.N) : Vec F S5000x128 .f32 :=
  out0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (iblk0 V c 0 t) (iblk0 V c 1 t)

/-- The proof data on core `c`: the arrays as the region finds them; after the body each input's buffer at its block and
    the output's at `outAt0`; the invariant the scoped buffers no window stages and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks, so the run applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outAt0 out0
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%eO, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0 c _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.KB.ReluProjectBody.lean ====
/-
  The second projection kernel (region 1), at the contents `V` the region is entered from.

  Every grid point reads its own block of 5000 rows of the first aggregation, the whole bias row and the whole 128×128
  weight matrix; it adds the bias row to every row of the block, clamps at zero, multiplies by the matrix and writes one
  whole output block. So what a point leaves in the output's staging buffer is a function of the point's three input blocks
  alone: the single store's payload, read back.

  Here: the body's run on whole staging buffers (the pieces the output ends with are found by the run), the proof data
  (inputs left as fetched, the output at the payload of the point's input blocks, nothing carried between points), and the
  body obligation at a generic point.
-/
import proofs.«153876_j4595615007018_1_alg».proof.Proof.Gen.Kernel.Launch
import proofs.«153876_j4595615007018_1_alg».proof.Proof.Gen.Kernel.Skeleton
import proofs.«153876_j4595615007018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: relu(row block + bias row) times the second weight matrix -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1 : View sig .tc .vmem S5000x128 .f32 := (Memref.whole cc1_stg3_0 : Memref sig .tc .vmem S5000x128 .f32).view

set_option maxHeartbeats 2000000 in
/-- The body on whole staging buffers — the inputs at their contents, the output at anything — runs to its return leaving
    the inputs as they were and the output with the pieces the run finds written. -/
noncomputable def kernelRun1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc1__bias_relu_matmul_kernel i arg1 harg1 arg2 harg2 arg3 harg3 arg4 harg4) K } := by
  refine ⟨?_, fun E K => ?run⟩
  case run =>
    simp only [cc1__bias_relu_matmul_kernel_eq_skeleton]; unfold cc1__bias_relu_matmul_kernel_skel
    unfold owns
    iintro ⟨⟨%f0, %hf0, H0⟩, ⟨%f1, %hf1, H1⟩, ⟨%f2, %hf2, H2⟩, ⟨%dO, %fO, -, HO⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HO

/-- The run's pieces tile the output block, so they cover it. -/
theorem cover1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (y : S5000x128.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S5000x128.size (by sl_kernel_rfl) y

/-- What the body leaves in the output's staging buffer: its pieces read back. -/
def out1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) : Vec F S5000x128 .f32 :=
  VO1.read (Elt F) (VO1.writes (Elt F) VO1.junk (kernelRun1 c i arg1 harg1 arg2 harg2 arg3 harg3 arg4 harg4 x0 x1 x2).1)

/-- The output block point `t` leaves: the body's result on the point's staging buffers and input blocks. -/
def outAt1 (c : Dev nD) (t : Fin cfg1.N) : Vec F S5000x128 .f32 :=
  out1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
    (iblk1 V c 0 t) (iblk1 V c 1 t) (iblk1 V c 2 t)

/-- The proof data on core `c`: the arrays as the region finds them; after the body each input's buffer at its block and
    the output's at `outAt1`; the invariant the scoped buffers no window stages and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1 out1
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%eO, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.KB.MeanRuns.lean ====
/-
  The column-mean kernel (region 2): what its three control cases share.

  The body keeps a running [1,128] row in a scratch buffer across its 20 grid points: the first point zeroes it, every
  point adds to it the column sums of (its block of 5000 rows + the bias row), and the last point writes the row times the
  reciprocal of the node count into the output block. So a point is in one of three cases — first (zero, then add), middle
  (add), last (add, then write out) — selected by two conditions on the grid coordinate, stated here in closed form and
  decided over the grid. The output window is idle (not stored into, not written back) at every point but the last.

  Then, per case, the body's run on whole staging buffers: the inputs at their blocks, the scratch at what the point before
  left (at anything in the first case, which overwrites it before reading it), the output handed back untouched where the
  case stores nothing into it; the pieces each stored buffer ends with are found by the run.
-/
import proofs.«153876_j4595615007018_1_alg».proof.Proof.Gen.Kernel.Launch
import proofs.«153876_j4595615007018_1_alg».proof.Proof.Gen.Kernel.Skeleton
import proofs.«153876_j4595615007018_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional's condition (the point is the first), from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)
/-- The second conditional's condition (the point is the last). -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The buffers -/

/-- One staging buffer of the output window, through which its contents are stated. -/
abbrev VO2 : View sig .tc .vmem S1x128 .f32 := (Memref.whole cc2_stg2_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The running row's scratch buffer, whole, and the view its contents are stated through. -/
abbrev scM2 : Memref sig .tc .vmem S1x128 .f32 := Memref.whole cc2_scratch0
abbrev VS2 : View sig .tc .vmem S1x128 .f32 := scM2.view

/-- The scoped buffers region 2 neither stages nor uses (the other two regions' staging buffers), each whole at some
    contents. -/
def Others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped buffers no window of region 2 stages are those and the scratch. -/
theorem scopedRest2_split (c : Dev nD) :
    (Pipeline.scopedRest (Ix := Unit) (Name := ℕ) (U := UR sig nD τ) (Lvl := ℕ) (Val := Elt F) spec2 c : sProp 𝕄)
      ⊢ iprop(Others2 c ∗ ∃ d, owns (c : Thread nD τ) scM2 fullShare d) := by
  rw [scopedRest2_eq]; unfold Others2; simp only [scM2, owns_whole]
  iintro ⟨R1, R2, R3, R4, R5, R6, R7, R8, R9, R10, R11, HS⟩
  isplitr [HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  · iexact HS
theorem scopedRest2_join (c : Dev nD) :
    iprop(Others2 c ∗ ∃ d, owns (c : Thread nD τ) scM2 fullShare d)
      ⊢ (Pipeline.scopedRest (Ix := Unit) (Name := ℕ) (U := UR sig nD τ) (Lvl := ℕ) (Val := Elt F) spec2 c : sProp 𝕄) := by
  rw [scopedRest2_eq]; unfold Others2; simp only [scM2, owns_whole]
  iintro ⟨⟨R1, R2, R3, R4, R5, R6, R7, R8, R9, R10, R11⟩, HS⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HS

/-! ## The body, case by case -/

set_option maxHeartbeats 2000000 in
/-- FIRST POINT: the scratch (at anything) is zeroed, then the block's column sums added; the output is handed back as
    found. -/
noncomputable def kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S5000x128 .f32) (x1 : Vec F S1x128 .f32) :
    { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi ∗ (∃ d, owns (c : Thread nD τ) arg4 fullShare d)
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc2__bias_mean_kernel i arg1 harg1 arg2 harg2 arg3 harg3 arg4 harg4) K } := by
  refine ⟨?_, fun xi E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- MIDDLE POINT: the block's column sums are added to the scratch at `xs`; the output is handed back as found. -/
noncomputable def kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S5000x128 .f32) (x1 : Vec F S1x128 .f32) (xs : Vec F S1x128 .f32) :
    { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi ∗ owns (c : Thread nD τ) arg4 fullShare xs
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc2__bias_mean_kernel i arg1 harg1 arg2 harg2 arg3 harg3 arg4 harg4) K } := by
  refine ⟨?_, fun xi E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- LAST POINT: the block's column sums are added to the scratch at `xs`, and the scratch times the reciprocal of the
    node count is stored into the output (found at anything). -/
noncomputable def kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) :
    Σ' (L2 : List (View.Piece (Elt F) S1x128 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc2__bias_mean_kernel i arg1 harg1 arg2 harg2 arg3 harg3 arg4 harg4) K } := by
  refine ⟨?_, ?_, fun E K => ?run⟩
  case run =>
    simp only [cc2__bias_mean_kernel_eq_skeleton]; unfold cc2__bias_mean_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.Kernel.Body

end
-- ==== Proof.KB.MeanBody.lean ====
/-
  The column-mean kernel (region 2): its proof data and body obligation, at the contents `V` the region is entered from.

  After point n the scratch holds the running row: the first point's result, then each later point's result over what the
  point before left (`outsAt2`, second component). The output block is named only at the last point, where the body stores
  the scratch times the reciprocal of the node count into it (`outsAt2`, first component); at the other points its buffer is
  handed back as found and not written back, so nothing reads what is stated for it there.

  The invariant before point n: before the first point the scoped buffers no window stages, at anything, and the generator
  register; afterwards the same with the scratch at what point n−1 left.
-/
import proofs.«153876_j4595615007018_1_alg».proof.Proof.KB.MeanRuns
import Idealize.ShloMosaic.Lib.Pipeline.RegionsLoop
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

theorem scover2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S5000x128 .f32) (x1 : Vec F S1x128 .f32) (y : S1x128.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1x128.size (by sl_kernel_rfl) y
/-- The scratch after the first point. -/
def sout2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S5000x128 .f32) (x1 : Vec F S1x128 .f32) : Vec F S1x128 .f32 :=
  VS2.read (Elt F) (VS2.writes (Elt F) VS2.junk (kernelRun2_A c i arg1 harg1 arg2 harg2 arg3 harg3 arg4 harg4 hc0 hc1 x0 x1).1)

theorem scover2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S5000x128 .f32) (x1 : Vec F S1x128 .f32) (xs : Vec F S1x128 .f32) (y : S1x128.Idx) :
    ∃ pc ∈ (kernelRun2_B c i arg1 harg1 arg2 harg2 arg3 harg3 arg4 harg4 hc0 hc1 x0 x1 xs).1, y ∈ pc.1.set :=
  View.cover_of_tiledL (kernelRun2_B c i arg1 harg1 arg2 harg2 arg3 harg3 arg4 harg4 hc0 hc1 x0 x1 xs).1 S1x128.size (by sl_kernel_rfl) y
/-- The scratch after a middle point, over what the point before left. -/
def sout2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S5000x128 .f32) (x1 : Vec F S1x128 .f32) (xs : Vec F S1x128 .f32) : Vec F S1x128 .f32 :=
  VS2.read (Elt F) (VS2.writes (Elt F) VS2.junk (kernelRun2_B c i arg1 harg1 arg2 harg2 arg3 harg3 arg4 harg4 hc0 hc1 x0 x1 xs).1)

theorem cover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) (y : S1x128.Idx) :
    ∃ pc ∈ (kernelRun2_C c i arg1 harg1 arg2 harg2 arg3 harg3 arg4 harg4 hc0 hc1 x0 x1 xs).1, y ∈ pc.1.set :=
  View.cover_of_tiledL (kernelRun2_C c i arg1 harg1 arg2 harg2 arg3 harg3 arg4 harg4 hc0 hc1 x0 x1 xs).1 S1x128.size (by sl_kernel_rfl) y
/-- The output block after the last point. -/
def out2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) : Vec F S1x128 .f32 :=
  VO2.read (Elt F) (VO2.writes (Elt F) VO2.junk (kernelRun2_C c i arg1 harg1 arg2 harg2 arg3 harg3 arg4 harg4 hc0 hc1 x0 x1 xs).1)
theorem scover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) (y : S1x128.Idx) :
    ∃ pc ∈ (kernelRun2_C c i arg1 harg1 arg2 harg2 arg3 harg3 arg4 harg4 hc0 hc1 x0 x1 xs).2.1, y ∈ pc.1.set :=
  View.cover_of_tiledL (kernelRun2_C c i arg1 harg1 arg2 harg2 arg3 harg3 arg4 harg4 hc0 hc1 x0 x1 xs).2.1 S1x128.size (by sl_kernel_rfl) y
/-- The scratch after the last point. -/
def sout2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) : Vec F S1x128 .f32 :=
  VS2.read (Elt F) (VS2.writes (Elt F) VS2.junk (kernelRun2_C c i arg1 harg1 arg2 harg2 arg3 harg3 arg4 harg4 hc0 hc1 x0 x1 xs).2.1)

/-! ## Point by point -/

theorem N2_eq : cfg2.N = 20 := N_2

/-- The conditions at a point, from its position. -/
theorem c0_of_zero (t : Fin cfg2.N) (h : t.val = 0) : cond2_0 (grid2.coords t) := (hcond2_0 t).mpr (by omega)
theorem nc0_of_pos (t : Fin cfg2.N) (h : t.val ≠ 0) : ¬cond2_0 (grid2.coords t) := fun hc => by
  have h1 := (hcond2_0 t).mp hc; have hN : t.val < 20 := lt_of_lt_of_eq t.isLt N2_eq; omega
theorem c1_of_last (t : Fin cfg2.N) (h : t.val % 20 = 19) : cond2_1 (grid2.coords t) := (hcond2_1 t).mpr h
theorem nc1_of_notlast (t : Fin cfg2.N) (h : ¬t.val % 20 = 19) : ¬cond2_1 (grid2.coords t) := fun hc => h ((hcond2_1 t).mp hc)

/-- THE ACCUMULATION: after the body at position `n`, the output's staging buffer (first component; a placeholder
    where the window is idle) and the scratch (second component): the first point's result, then each point's over what
    the point before left in the scratch. -/
def outsAt2 (c : Dev nD) : (n : ℕ) → n < cfg2.N → Vec F S1x128 .f32 × Vec F S1x128 .f32
  | 0, hn => (VO2.read (Elt F) VO2.junk,
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (c0_of_zero ⟨0, hn⟩ rfl) (nc1_of_notlast ⟨0, hn⟩ (show ¬(0 : ℕ) % 20 = 19 by decide)) (iblk2 V c 0 ⟨0, hn⟩) (iblk2 V c 1 ⟨0, hn⟩))
  | n + 1, hn =>
    if h1 : (n + 1) % 20 = 19 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (nc0_of_pos ⟨n + 1, hn⟩ (Nat.succ_ne_zero n)) (c1_of_last ⟨n + 1, hn⟩ h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (nc0_of_pos ⟨n + 1, hn⟩ (Nat.succ_ne_zero n)) (c1_of_last ⟨n + 1, hn⟩ h1) (iblk2 V c 0 ⟨n + 1, hn⟩) (iblk2 V c 1 ⟨n + 1, hn⟩) (outsAt2 c n (Nat.lt_of_succ_lt hn)).2)
    else
      (VO2.read (Elt F) VO2.junk,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (nc0_of_pos ⟨n + 1, hn⟩ (Nat.succ_ne_zero n)) (nc1_of_notlast ⟨n + 1, hn⟩ h1) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) :
    outsAt2 V c t.val t.isLt = (VO2.read (Elt F) VO2.junk,
      sout2_A c (grid2.coords t) (ms2_0 t) (hs2_0 t) (ms2_1 t) (hs2_1 t) (ms2_2 t) (hs2_2 t) scM2 (Memref.isWhole_whole _) (c0_of_zero t h0) (nc1_of_notlast t (by omega)) (iblk2 V c 0 t) (iblk2 V c 1 t)) := by
  obtain ⟨n, hn⟩ := t
  cases n with
  | zero => rfl
  | succ n => exact absurd h0 (Nat.succ_ne_zero n)

theorem outsAt2_B (c : Dev nD) (t : Fin cfg2.N) (h0 : t.val ≠ 0) (h1 : ¬t.val % 20 = 19) :
    outsAt2 V c t.val t.isLt = (VO2.read (Elt F) VO2.junk,
      sout2_B c (grid2.coords t) (ms2_0 t) (hs2_0 t) (ms2_1 t) (hs2_1 t) (ms2_2 t) (hs2_2 t) scM2 (Memref.isWhole_whole _) (nc0_of_pos t h0) (nc1_of_notlast t h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : t.val ≠ 0) (h1 : t.val % 20 = 19) :
    outsAt2 V c t.val t.isLt = (out2_C c (grid2.coords t) (ms2_0 t) (hs2_0 t) (ms2_1 t) (hs2_1 t) (ms2_2 t) (hs2_2 t) scM2 (Memref.isWhole_whole _) (nc0_of_pos t h0) (c1_of_last t h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (nc0_of_pos t h0) (c1_of_last t h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant and the proof data -/

/-- Before position `n`: at the first point the scoped buffers no window stages at anything and the generator register;
    afterwards the same with the scratch at what the point before left. -/
def PhiS (c : Dev nD) : (n : ℕ) → n ≤ cfg2.N → sProp 𝕄
  | 0, _ => Pipeline.ΦA spec2 c
  | n + 1, hn => iprop((Others2 c ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop((Others2 c ∗ owns (c : Thread nD τ) scM2 fullShare ((outsAt2 V c n hn).2)) ∗ (∃ r, prngReg c r)) := rfl
theorem PhiS_pos (c : Dev nD) (n : ℕ) (h : n ≤ cfg2.N) (hz : n ≠ 0) :
    PhiS V c n h = iprop((Others2 c ∗ owns (c : Thread nD τ) scM2 fullShare ((outsAt2 V c (n - 1) (by omega)).2)) ∗ (∃ r, prngReg c r)) := by
  cases n with
  | zero => exact absurd rfl hz
  | succ n => rfl

/-- The proof data of region 2 on core `c`: the arrays as the region finds them; after the body each input's buffer at
    its block and the output's at `outsAt2`'s first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the position says which case the point is in; the invariant hands the body the scratch at what
    the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  by_cases h0 : t.val = 0
  · have hnl : ¬t.val % 20 = 19 := by omega
    rw [Dat.leavesExact_idle (dat2 V c) 2 t (idleAt2_2 t (nc1_of_notlast t hnl)) (noFlush2_2 t (nc1_of_notlast t hnl))]
    rw [outsAt2_A V c t h0]
    unfold sout2_A; (try dsimp only)
    rw [PhiS_castSucc V c t, PhiS_zero V c _ _ h0]; unfold Pipeline.ΦA
    iintro ⟨⟨Hsr, Hg⟩, Ho, ⟨%d0, H0⟩, ⟨%d1, H1⟩, ⟨%d2, H2⟩⟩
    ihave Hs := (scopedRest2_split c) $$ Hsr
    icases Hs with ⟨Hoth, HS⟩
    iapply ((kernelRun2_A c (grid2.coords t) _ _ _ _ _ _ _ _ (c0_of_zero t h0) (nc1_of_notlast t hnl) (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [Hoth HS Hg]
    · isplitl [Hoth HS]
      · isplitl [Hoth]; · iexact Hoth
        unfold owns; iexists _; isplitr
        swap; · iexact HS
        ipureintro; exact View.read_writes_of_cover _ _ _ _ _ (scover2_A c _ _ _ _ _ _ _ _ _ _ _ _ _)
      iexact Hg
    isplitl [Ho]; · iexact Ho
    isplitl [H0]; · iexact H0
    isplitl [H1]; · iexact H1
    iexists _; iexact H2
  · by_cases h1 : t.val % 20 = 19
    · rw [show (dat2 V c).leavesExact 2 t = owns (c : Thread nD τ) (ms2_2 t) fullShare ((dat2 V c).after 2 t) from by
        unfold Dat.leavesExact; rw [liveAt2_2 t (c1_of_last t h1)], after2_2]
      rw [outsAt2_C V c t h0 h1]
      unfold out2_C sout2_C; (try dsimp only)
      rw [PhiS_castSucc V c t, PhiS_pos V c _ _ h0]
      iintro ⟨⟨⟨Hoth, HS⟩, Hg⟩, Ho, ⟨%d0, H0⟩, ⟨%d1, H1⟩, ⟨%d2, H2⟩⟩
      iapply ((kernelRun2_C c (grid2.coords t) _ _ _ _ _ _ _ _ (nc0_of_pos t h0) (c1_of_last t h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover2_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (nc1_of_notlast t h1)) (noFlush2_2 t (nc1_of_notlast t h1))]
      rw [outsAt2_B V c t h0 h1]
      unfold sout2_B; (try dsimp only)
      rw [PhiS_castSucc V c t, PhiS_pos V c _ _ h0]
      iintro ⟨⟨⟨Hoth, HS⟩, Hg⟩, Ho, ⟨%d0, H0⟩, ⟨%d1, H1⟩, ⟨%d2, H2⟩⟩
      iapply ((kernelRun2_B c (grid2.coords t) _ _ _ _ _ _ _ _ (nc0_of_pos t h0) (nc1_of_notlast t h1) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover2_B c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem Phi_in2 (c : Dev nD) : Pipeline.ΦA spec2 c ⊢ (dat2 V c).Φ 0 := by
  rw [show (dat2 V c).Φ 0 = PhiS V c 0 (Nat.zero_le _) from rfl, PhiS_zero V c 0 _ rfl]

/-- and after the last point the invariant gives it back, the scratch's contents forgotten. -/
theorem Phi_out2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 20 := N2_eq; omega)]
  unfold Pipeline.ΦA
  iintro ⟨⟨Hoth, HS⟩, Hg⟩
  isplitl [Hoth HS]
  · iapply (scopedRest2_join c)
    isplitl [Hoth]; · iexact Hoth
    iexists _; iexact HS
  iexact Hg

end Cert.Kernel.Body

end
-- ==== Proof.KB.KernelRun.lean ====
/-
  The whole program's run, from the launch to the return.

  @main is three kernel regions with host operations between them. The contents of every unscoped buffer at each boundary
  are a fold from the launch memory: a stretch of host operations applies them; a region leaves its arrays at what its
  pipeline's write-backs leave (its inputs as entered, its output assembled from the blocks the grid points wrote) and every
  other buffer as entered. Each region is entered from "every unscoped buffer at the boundary's contents, the generator
  register at some state, nothing owed" and left in the same form at the next boundary's contents.

  `run_all`: every weakly fair execution from any launch memory terminates, nothing faulting, and every final memory holds
  every unscoped buffer at the last boundary's contents `W6`. The frame (the arguments end as launched, `W6_main_argK`) is
  read off it here; the result's value is read off it elsewhere.
-/
import proofs.«153876_j4595615007018_1_alg».proof.Proof.KB.ProjectBody
import proofs.«153876_j4595615007018_1_alg».proof.Proof.KB.ReluProjectBody
import proofs.«153876_j4595615007018_1_alg».proof.Proof.KB.MeanBody
import proofs.«153876_j4595615007018_1_alg».proof.Proof.Gen.Kernel.Regions
import Idealize.ShloMosaic.Lib.Pipeline.RegionsLoop
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- A valuation read at the TensorCore's references (what a region's proof data take). -/
abbrev Vof (W : Dev nD → Valuation τ sig (Elt F)) : (c : Dev nD) → (b : Ref sig .tc) → Buf (Elt F) ((c : Thread nD τ).loc b) := fun c b => W c b

/-- Core `c`'s buffers at launch (region 0's entry). -/
abbrev W0 : Dev nD → Valuation τ sig (Elt F) := fun c b => m (c, b)
/-- At region 0's exit: its arrays at what the pipeline leaves (the inputs as entered, the output's write-backs folded),
    every other buffer as entered. -/
def W1 (c : Dev nD) : Valuation τ sig (Elt F) :=
  Pipeline.withArrays spec0 c (W0 m c) fun w => (dat0 (Vof (W0 m)) c).arrAt w cfg0.N
theorem W1_arr (c : Dev nD) (w : Fin cfg0.W) :
    W1 m c (Proc.devRef .tc (Pipeline.arrRef spec0 w)) = (dat0 (Vof (W0 m)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem hF0 (c : Dev nD) (w : Fin cfg0.W) : (dat0 (Vof (W0 m)) c).arrAt w cfg0.N = Vof (W1 m) c (Pipeline.arrRef spec0 w) :=
  (W1_arr m c w).symm
theorem hrest0 (c : Dev nD) : ∀ b, b ∉ Finset.univ.image (Pipeline.arrRef spec0) → Vof (W1 m) c b = Vof (W0 m) c b :=
  fun b hb => W1_of_ne m c b fun w e => hb (Finset.mem_image.mpr ⟨w, Finset.mem_univ _, e⟩)

/-- After the first stretch of host operations (region 1's entry). -/
abbrev W2 : Dev nD → Valuation τ sig (Elt F) := fun c => StableHlo.after hostOps1 (W1 m c)
/-- At region 1's exit: its arrays at what the pipeline leaves (the inputs as entered, the output's write-backs folded),
    every other buffer as entered. -/
def W3 (c : Dev nD) : Valuation τ sig (Elt F) :=
  Pipeline.withArrays spec1 c (W2 m c) fun w => (dat1 (Vof (W2 m)) c).arrAt w cfg1.N
theorem W3_arr (c : Dev nD) (w : Fin cfg1.W) :
    W3 m c (Proc.devRef .tc (Pipeline.arrRef spec1 w)) = (dat1 (Vof (W2 m)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (Vof (W2 m)) c).arrAt w cfg1.N = Vof (W3 m) c (Pipeline.arrRef spec1 w) :=
  (W3_arr m c w).symm
theorem hrest1 (c : Dev nD) : ∀ b, b ∉ Finset.univ.image (Pipeline.arrRef spec1) → Vof (W3 m) c b = Vof (W2 m) c b :=
  fun b hb => W3_of_ne m c b fun w e => hb (Finset.mem_image.mpr ⟨w, Finset.mem_univ _, e⟩)

/-- After the second stretch (region 2's entry). -/
abbrev W4 : Dev nD → Valuation τ sig (Elt F) := fun c => StableHlo.after hostOps2 (W3 m c)
/-- At region 2's exit: its arrays at what the pipeline leaves (the inputs as entered, the output's write-backs folded),
    every other buffer as entered. -/
def W5 (c : Dev nD) : Valuation τ sig (Elt F) :=
  Pipeline.withArrays spec2 c (W4 m c) fun w => (dat2 (Vof (W4 m)) c).arrAt w cfg2.N
theorem W5_arr (c : Dev nD) (w : Fin cfg2.W) :
    W5 m c (Proc.devRef .tc (Pipeline.arrRef spec2 w)) = (dat2 (Vof (W4 m)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem hF2 (c : Dev nD) (w : Fin cfg2.W) : (dat2 (Vof (W4 m)) c).arrAt w cfg2.N = Vof (W5 m) c (Pipeline.arrRef spec2 w) :=
  (W5_arr m c w).symm
theorem hrest2 (c : Dev nD) : ∀ b, b ∉ Finset.univ.image (Pipeline.arrRef spec2) → Vof (W5 m) c b = Vof (W4 m) c b :=
  fun b hb => W5_of_ne m c b fun w e => hb (Finset.mem_image.mpr ⟨w, Finset.mem_univ _, e⟩)

/-- After the last stretch: the end. -/
abbrev W6 : Dev nD → Valuation τ sig (Elt F) := fun c => StableHlo.after hostOps3 (W5 m c)

/-! ## The arguments end as launched -/

/-- `main_arg0` reaches the end as launched: no host operation writes it, and a region reads it through an input window or
    bypasses it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide : main_arg0 ∉ hostOps3_W)
    _ = W4 m c (Proc.devRef .tc main_arg0) := W5_of_ne m c main_arg0 (by decide)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := StableHlo.after_of_writes_sub hostOps1 _ hostOps1_writes (by decide : main_arg0 ∉ hostOps1_W)
    _ = W0 m c (Proc.devRef .tc main_arg0) := (W1_arr m c 0).trans (((dat0 (Vof (W0 m)) c).arrAt_in 0 rfl _).trans (A_eq0 (Vof (W0 m)) c 0))
    _ = m ((c : Thread nD τ).loc main_arg0) := rfl

/-- `main_arg1` reaches the end as launched: no host operation writes it, and a region reads it through an input window or
    bypasses it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide : main_arg1 ∉ hostOps3_W)
    _ = W4 m c (Proc.devRef .tc main_arg1) := W5_of_ne m c main_arg1 (by decide)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := StableHlo.after_of_writes_sub hostOps1 _ hostOps1_writes (by decide : main_arg1 ∉ hostOps1_W)
    _ = W0 m c (Proc.devRef .tc main_arg1) := W1_of_ne m c main_arg1 (by decide)
    _ = m ((c : Thread nD τ).loc main_arg1) := rfl

/-- `main_arg2` reaches the end as launched: no host operation writes it, and a region reads it through an input window or
    bypasses it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide : main_arg2 ∉ hostOps3_W)
    _ = W4 m c (Proc.devRef .tc main_arg2) := W5_of_ne m c main_arg2 (by decide)
    _ = W3 m c (Proc.devRef .tc main_arg2) := StableHlo.after_of_writes_sub hostOps2 _ hostOps2_writes (by decide : main_arg2 ∉ hostOps2_W)
    _ = W2 m c (Proc.devRef .tc main_arg2) := W3_of_ne m c main_arg2 (by decide)
    _ = W1 m c (Proc.devRef .tc main_arg2) := StableHlo.after_of_writes_sub hostOps1 _ hostOps1_writes (by decide : main_arg2 ∉ hostOps1_W)
    _ = W0 m c (Proc.devRef .tc main_arg2) := (W1_arr m c 1).trans (((dat0 (Vof (W0 m)) c).arrAt_in 1 rfl _).trans (A_eq0 (Vof (W0 m)) c 1))
    _ = m ((c : Thread nD τ).loc main_arg2) := rfl

/-- `main_arg3` reaches the end as launched: no host operation writes it, and a region reads it through an input window or
    bypasses it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide : main_arg3 ∉ hostOps3_W)
    _ = W4 m c (Proc.devRef .tc main_arg3) := W5_of_ne m c main_arg3 (by decide)
    _ = W3 m c (Proc.devRef .tc main_arg3) := StableHlo.after_of_writes_sub hostOps2 _ hostOps2_writes (by decide : main_arg3 ∉ hostOps2_W)
    _ = W2 m c (Proc.devRef .tc main_arg3) := W3_of_ne m c main_arg3 (by decide)
    _ = W1 m c (Proc.devRef .tc main_arg3) := StableHlo.after_of_writes_sub hostOps1 _ hostOps1_writes (by decide : main_arg3 ∉ hostOps1_W)
    _ = W0 m c (Proc.devRef .tc main_arg3) := W1_of_ne m c main_arg3 (by decide)
    _ = m ((c : Thread nD τ).loc main_arg3) := rfl

/-- `main_arg4` reaches the end as launched: no host operation writes it, and a region reads it through an input window or
    bypasses it. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide : main_arg4 ∉ hostOps3_W)
    _ = W4 m c (Proc.devRef .tc main_arg4) := W5_of_ne m c main_arg4 (by decide)
    _ = W3 m c (Proc.devRef .tc main_arg4) := StableHlo.after_of_writes_sub hostOps2 _ hostOps2_writes (by decide : main_arg4 ∉ hostOps2_W)
    _ = W2 m c (Proc.devRef .tc main_arg4) := (W3_arr m c 2).trans (((dat1 (Vof (W2 m)) c).arrAt_in 2 rfl _).trans (A_eq1 (Vof (W2 m)) c 2))
    _ = W1 m c (Proc.devRef .tc main_arg4) := StableHlo.after_of_writes_sub hostOps1 _ hostOps1_writes (by decide : main_arg4 ∉ hostOps1_W)
    _ = W0 m c (Proc.devRef .tc main_arg4) := W1_of_ne m c main_arg4 (by decide)
    _ = m ((c : Thread nD τ).loc main_arg4) := rfl

/-- `main_arg5` reaches the end as launched: no host operation writes it, and a region reads it through an input window or
    bypasses it. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide : main_arg5 ∉ hostOps3_W)
    _ = W4 m c (Proc.devRef .tc main_arg5) := W5_of_ne m c main_arg5 (by decide)
    _ = W3 m c (Proc.devRef .tc main_arg5) := StableHlo.after_of_writes_sub hostOps2 _ hostOps2_writes (by decide : main_arg5 ∉ hostOps2_W)
    _ = W2 m c (Proc.devRef .tc main_arg5) := W3_of_ne m c main_arg5 (by decide)
    _ = W1 m c (Proc.devRef .tc main_arg5) := StableHlo.after_of_writes_sub hostOps1 _ hostOps1_writes (by decide : main_arg5 ∉ hostOps1_W)
    _ = W0 m c (Proc.devRef .tc main_arg5) := W1_of_ne m c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vof (W0 m)) c
  | ⟨1, _⟩ => fun c => dat1 (Vof (W2 m)) c
  | ⟨2, _⟩ => fun c => dat2 (Vof (W4 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- REGION 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vof (W0 m)) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vof (W0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vof (W0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vof (W0 m) c) (Vof (W1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vof (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vof (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vof (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vof (W2 m) c) (Vof (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its arrays are
    split out of the unscoped buffers and put back at the exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vof (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (Vof (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vof (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in2 (Vof (W4 m)) c)
    unfold Pipeline.ΦA
    iintro ⟨Hp, -, Hr⟩
    isplitl [Hr]; · iexact Hr
    iexact Hp
  hout c := by
    refine BIBase.Entails.trans (Phi_out2 (Vof (W4 m)) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vof (W4 m) c) (Vof (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

/-- The last thread state without the dues: every unscoped buffer at `W6`, the generator register at some state. -/
abbrev Tₙ (c : Dev nD) : sProp 𝕄 := iprop(StableHlo.held (c : Thread nD τ) (Pipeline.ucRefs τ sig) (W6 m c) ∗ ∃ r, prngReg c r)

/-- What the run leaves: on every core, every unscoped TensorCore buffer at `W6`. -/
def Final (s : MemSt nD τ sig (Elt F)) : Prop :=
  ∀ (c : Dev nD), ∀ b ∈ Pipeline.ucRefs τ sig, s.mem (((c : Thread nD τ)).1, b) = W6 m c b

set_option backward.isDefEq.respectTransparency.types false in
/-- THE RUN. -/
theorem run_all : θ_run defs (onTc (τ := τ) (main (F := F))) ⟨m, fun _ => 0, ρ⟩ (fun r => Final m r.2) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: from any launch memory every weakly fair execution terminates, nothing faulting, with the six argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.Kernel.Body

end
-- ==== Proof.KI.ProjectBody.lean ====
/-
  The first projection kernel (region 0), at the contents `V` the region is entered from.

  Every grid point reads its own block of 5000 rows of the node features and the whole 128×128 weight matrix, and writes
  one whole output block: the block's rows times the matrix. So what a point leaves in the output's staging buffer is a
  function of the point's two input blocks alone: the single store's payload, read back.

  Here: the body's run on whole staging buffers (the pieces the output ends with are found by the run), the proof data
  (inputs left as fetched, the output at the payload of the point's input blocks, nothing carried between points), and the
  body obligation at a generic point.
-/
import proofs.«153876_j4595615007018_1_alg».proof.Proof.Gen.KernelIdeal.Launch
import proofs.«153876_j4595615007018_1_alg».proof.Proof.Gen.KernelIdeal.Skeleton
import proofs.«153876_j4595615007018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0: a row block times the first weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0 : View sig .tc .vmem S5000x128 .f32 := (Memref.whole cc0_stg2_0 : Memref sig .tc .vmem S5000x128 .f32).view

set_option maxHeartbeats 2000000 in
/-- The body on whole staging buffers — the inputs at their contents, the output at anything — runs to its return leaving
    the inputs as they were and the output with the pieces the run finds written. -/
noncomputable def kernelRun0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%dO, %fO, -, HO⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact HO

/-- The run's pieces tile the output block, so they cover it. -/
theorem cover0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (y : S5000x128.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S5000x128.size (by sl_kernel_rfl) y

/-- What the body leaves in the output's staging buffer: its pieces read back. -/
def out0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) : Vec F S5000x128 .f32 :=
  VO0.read (Elt F) (VO0.writes (Elt F) VO0.junk (kernelRun0 c i arg1 harg1 arg2 harg2 arg3 harg3 x0 x1).1)

/-- The output block point `t` leaves: the body's result on the point's staging buffers and input blocks. -/
def outAt0 (c : Dev nD) (t : Fin cfg0.N) : Vec F S5000x128 .f32 :=
  out0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (iblk0 V c 0 t) (iblk0 V c 1 t)

/-- The proof data on core `c`: the arrays as the region finds them; after the body each input's buffer at its block and
    the output's at `outAt0`; the invariant the scoped buffers no window stages and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks, so the run applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outAt0 out0
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%eO, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0 c _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KI.ReluProjectBody.lean ====
/-
  The second projection kernel (region 1), at the contents `V` the region is entered from.

  Every grid point reads its own block of 5000 rows of the first aggregation, the whole bias row and the whole 128×128
  weight matrix; it adds the bias row to every row of the block, clamps at zero, multiplies by the matrix and writes one
  whole output block. So what a point leaves in the output's staging buffer is a function of the point's three input blocks
  alone: the single store's payload, read back.

  Here: the body's run on whole staging buffers (the pieces the output ends with are found by the run), the proof data
  (inputs left as fetched, the output at the payload of the point's input blocks, nothing carried between points), and the
  body obligation at a generic point.
-/
import proofs.«153876_j4595615007018_1_alg».proof.Proof.Gen.KernelIdeal.Launch
import proofs.«153876_j4595615007018_1_alg».proof.Proof.Gen.KernelIdeal.Skeleton
import proofs.«153876_j4595615007018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 1: relu(row block + bias row) times the second weight matrix -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1 : View sig .tc .vmem S5000x128 .f32 := (Memref.whole cc1_stg3_0 : Memref sig .tc .vmem S5000x128 .f32).view

set_option maxHeartbeats 2000000 in
/-- The body on whole staging buffers — the inputs at their contents, the output at anything — runs to its return leaving
    the inputs as they were and the output with the pieces the run finds written. -/
noncomputable def kernelRun1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc1__bias_relu_matmul_kernel i arg1 harg1 arg2 harg2 arg3 harg3 arg4 harg4) K } := by
  refine ⟨?_, fun E K => ?run⟩
  case run =>
    simp only [cc1__bias_relu_matmul_kernel_eq_skeleton]; unfold cc1__bias_relu_matmul_kernel_skel
    unfold owns
    iintro ⟨⟨%f0, %hf0, H0⟩, ⟨%f1, %hf1, H1⟩, ⟨%f2, %hf2, H2⟩, ⟨%dO, %fO, -, HO⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HO

/-- The run's pieces tile the output block, so they cover it. -/
theorem cover1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (y : S5000x128.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S5000x128.size (by sl_kernel_rfl) y

/-- What the body leaves in the output's staging buffer: its pieces read back. -/
def out1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) : Vec F S5000x128 .f32 :=
  VO1.read (Elt F) (VO1.writes (Elt F) VO1.junk (kernelRun1 c i arg1 harg1 arg2 harg2 arg3 harg3 arg4 harg4 x0 x1 x2).1)

/-- The output block point `t` leaves: the body's result on the point's staging buffers and input blocks. -/
def outAt1 (c : Dev nD) (t : Fin cfg1.N) : Vec F S5000x128 .f32 :=
  out1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
    (iblk1 V c 0 t) (iblk1 V c 1 t) (iblk1 V c 2 t)

/-- The proof data on core `c`: the arrays as the region finds them; after the body each input's buffer at its block and
    the output's at `outAt1`; the invariant the scoped buffers no window stages and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1 out1
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%eO, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.KI.MeanRuns.lean ====
/-
  The column-mean kernel (region 2): what its three control cases share.

  The body keeps a running [1,128] row in a scratch buffer across its 20 grid points: the first point zeroes it, every
  point adds to it the column sums of (its block of 5000 rows + the bias row), and the last point writes the row times the
  reciprocal of the node count into the output block. So a point is in one of three cases — first (zero, then add), middle
  (add), last (add, then write out) — selected by two conditions on the grid coordinate, stated here in closed form and
  decided over the grid. The output window is idle (not stored into, not written back) at every point but the last.

  Then, per case, the body's run on whole staging buffers: the inputs at their blocks, the scratch at what the point before
  left (at anything in the first case, which overwrites it before reading it), the output handed back untouched where the
  case stores nothing into it; the pieces each stored buffer ends with are found by the run.
-/
import proofs.«153876_j4595615007018_1_alg».proof.Proof.Gen.KernelIdeal.Launch
import proofs.«153876_j4595615007018_1_alg».proof.Proof.Gen.KernelIdeal.Skeleton
import proofs.«153876_j4595615007018_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions -/

/-- The first conditional's condition (the point is the first), from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)
/-- The second conditional's condition (the point is the last). -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The buffers -/

/-- One staging buffer of the output window, through which its contents are stated. -/
abbrev VO2 : View sig .tc .vmem S1x128 .f32 := (Memref.whole cc2_stg2_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The running row's scratch buffer, whole, and the view its contents are stated through. -/
abbrev scM2 : Memref sig .tc .vmem S1x128 .f32 := Memref.whole cc2_scratch0
abbrev VS2 : View sig .tc .vmem S1x128 .f32 := scM2.view

/-- The scoped buffers region 2 neither stages nor uses (the other two regions' staging buffers), each whole at some
    contents. -/
def Others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped buffers no window of region 2 stages are those and the scratch. -/
theorem scopedRest2_split (c : Dev nD) :
    (Pipeline.scopedRest (Ix := Unit) (Name := ℕ) (U := UR sig nD τ) (Lvl := ℕ) (Val := Elt F) spec2 c : sProp 𝕄)
      ⊢ iprop(Others2 c ∗ ∃ d, owns (c : Thread nD τ) scM2 fullShare d) := by
  rw [scopedRest2_eq]; unfold Others2; simp only [scM2, owns_whole]
  iintro ⟨R1, R2, R3, R4, R5, R6, R7, R8, R9, R10, R11, HS⟩
  isplitr [HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  · iexact HS
theorem scopedRest2_join (c : Dev nD) :
    iprop(Others2 c ∗ ∃ d, owns (c : Thread nD τ) scM2 fullShare d)
      ⊢ (Pipeline.scopedRest (Ix := Unit) (Name := ℕ) (U := UR sig nD τ) (Lvl := ℕ) (Val := Elt F) spec2 c : sProp 𝕄) := by
  rw [scopedRest2_eq]; unfold Others2; simp only [scM2, owns_whole]
  iintro ⟨⟨R1, R2, R3, R4, R5, R6, R7, R8, R9, R10, R11⟩, HS⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HS

/-! ## The body, case by case -/

set_option maxHeartbeats 2000000 in
/-- FIRST POINT: the scratch (at anything) is zeroed, then the block's column sums added; the output is handed back as
    found. -/
noncomputable def kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S5000x128 .f32) (x1 : Vec F S1x128 .f32) :
    { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi ∗ (∃ d, owns (c : Thread nD τ) arg4 fullShare d)
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc2__bias_mean_kernel i arg1 harg1 arg2 harg2 arg3 harg3 arg4 harg4) K } := by
  refine ⟨?_, fun xi E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- MIDDLE POINT: the block's column sums are added to the scratch at `xs`; the output is handed back as found. -/
noncomputable def kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S5000x128 .f32) (x1 : Vec F S1x128 .f32) (xs : Vec F S1x128 .f32) :
    { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi ∗ owns (c : Thread nD τ) arg4 fullShare xs
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc2__bias_mean_kernel i arg1 harg1 arg2 harg2 arg3 harg3 arg4 harg4) K } := by
  refine ⟨?_, fun xi E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- LAST POINT: the block's column sums are added to the scratch at `xs`, and the scratch times the reciprocal of the
    node count is stored into the output (found at anything). -/
noncomputable def kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) :
    Σ' (L2 : List (View.Piece (Elt F) S1x128 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc2__bias_mean_kernel i arg1 harg1 arg2 harg2 arg3 harg3 arg4 harg4) K } := by
  refine ⟨?_, ?_, fun E K => ?run⟩
  case run =>
    simp only [cc2__bias_mean_kernel_eq_skeleton]; unfold cc2__bias_mean_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.KernelIdeal.Body

end
-- ==== Proof.KI.MeanBody.lean ====
/-
  The column-mean kernel (region 2): its proof data and body obligation, at the contents `V` the region is entered from.

  After point n the scratch holds the running row: the first point's result, then each later point's result over what the
  point before left (`outsAt2`, second component). The output block is named only at the last point, where the body stores
  the scratch times the reciprocal of the node count into it (`outsAt2`, first component); at the other points its buffer is
  handed back as found and not written back, so nothing reads what is stated for it there.

  The invariant before point n: before the first point the scoped buffers no window stages, at anything, and the generator
  register; afterwards the same with the scratch at what point n−1 left.
-/
import proofs.«153876_j4595615007018_1_alg».proof.Proof.KI.MeanRuns
import Idealize.ShloMosaic.Lib.Pipeline.RegionsLoop
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

theorem scover2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S5000x128 .f32) (x1 : Vec F S1x128 .f32) (y : S1x128.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1x128.size (by sl_kernel_rfl) y
/-- The scratch after the first point. -/
def sout2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S5000x128 .f32) (x1 : Vec F S1x128 .f32) : Vec F S1x128 .f32 :=
  VS2.read (Elt F) (VS2.writes (Elt F) VS2.junk (kernelRun2_A c i arg1 harg1 arg2 harg2 arg3 harg3 arg4 harg4 hc0 hc1 x0 x1).1)

theorem scover2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S5000x128 .f32) (x1 : Vec F S1x128 .f32) (xs : Vec F S1x128 .f32) (y : S1x128.Idx) :
    ∃ pc ∈ (kernelRun2_B c i arg1 harg1 arg2 harg2 arg3 harg3 arg4 harg4 hc0 hc1 x0 x1 xs).1, y ∈ pc.1.set :=
  View.cover_of_tiledL (kernelRun2_B c i arg1 harg1 arg2 harg2 arg3 harg3 arg4 harg4 hc0 hc1 x0 x1 xs).1 S1x128.size (by sl_kernel_rfl) y
/-- The scratch after a middle point, over what the point before left. -/
def sout2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S5000x128 .f32) (x1 : Vec F S1x128 .f32) (xs : Vec F S1x128 .f32) : Vec F S1x128 .f32 :=
  VS2.read (Elt F) (VS2.writes (Elt F) VS2.junk (kernelRun2_B c i arg1 harg1 arg2 harg2 arg3 harg3 arg4 harg4 hc0 hc1 x0 x1 xs).1)

theorem cover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) (y : S1x128.Idx) :
    ∃ pc ∈ (kernelRun2_C c i arg1 harg1 arg2 harg2 arg3 harg3 arg4 harg4 hc0 hc1 x0 x1 xs).1, y ∈ pc.1.set :=
  View.cover_of_tiledL (kernelRun2_C c i arg1 harg1 arg2 harg2 arg3 harg3 arg4 harg4 hc0 hc1 x0 x1 xs).1 S1x128.size (by sl_kernel_rfl) y
/-- The output block after the last point. -/
def out2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) : Vec F S1x128 .f32 :=
  VO2.read (Elt F) (VO2.writes (Elt F) VO2.junk (kernelRun2_C c i arg1 harg1 arg2 harg2 arg3 harg3 arg4 harg4 hc0 hc1 x0 x1 xs).1)
theorem scover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) (y : S1x128.Idx) :
    ∃ pc ∈ (kernelRun2_C c i arg1 harg1 arg2 harg2 arg3 harg3 arg4 harg4 hc0 hc1 x0 x1 xs).2.1, y ∈ pc.1.set :=
  View.cover_of_tiledL (kernelRun2_C c i arg1 harg1 arg2 harg2 arg3 harg3 arg4 harg4 hc0 hc1 x0 x1 xs).2.1 S1x128.size (by sl_kernel_rfl) y
/-- The scratch after the last point. -/
def sout2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) : Vec F S1x128 .f32 :=
  VS2.read (Elt F) (VS2.writes (Elt F) VS2.junk (kernelRun2_C c i arg1 harg1 arg2 harg2 arg3 harg3 arg4 harg4 hc0 hc1 x0 x1 xs).2.1)

/-! ## Point by point -/

theorem N2_eq : cfg2.N = 20 := N_2

/-- The conditions at a point, from its position. -/
theorem c0_of_zero (t : Fin cfg2.N) (h : t.val = 0) : cond2_0 (grid2.coords t) := (hcond2_0 t).mpr (by omega)
theorem nc0_of_pos (t : Fin cfg2.N) (h : t.val ≠ 0) : ¬cond2_0 (grid2.coords t) := fun hc => by
  have h1 := (hcond2_0 t).mp hc; have hN : t.val < 20 := lt_of_lt_of_eq t.isLt N2_eq; omega
theorem c1_of_last (t : Fin cfg2.N) (h : t.val % 20 = 19) : cond2_1 (grid2.coords t) := (hcond2_1 t).mpr h
theorem nc1_of_notlast (t : Fin cfg2.N) (h : ¬t.val % 20 = 19) : ¬cond2_1 (grid2.coords t) := fun hc => h ((hcond2_1 t).mp hc)

/-- THE ACCUMULATION: after the body at position `n`, the output's staging buffer (first component; a placeholder
    where the window is idle) and the scratch (second component): the first point's result, then each point's over what
    the point before left in the scratch. -/
def outsAt2 (c : Dev nD) : (n : ℕ) → n < cfg2.N → Vec F S1x128 .f32 × Vec F S1x128 .f32
  | 0, hn => (VO2.read (Elt F) VO2.junk,
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (c0_of_zero ⟨0, hn⟩ rfl) (nc1_of_notlast ⟨0, hn⟩ (show ¬(0 : ℕ) % 20 = 19 by decide)) (iblk2 V c 0 ⟨0, hn⟩) (iblk2 V c 1 ⟨0, hn⟩))
  | n + 1, hn =>
    if h1 : (n + 1) % 20 = 19 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (nc0_of_pos ⟨n + 1, hn⟩ (Nat.succ_ne_zero n)) (c1_of_last ⟨n + 1, hn⟩ h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (nc0_of_pos ⟨n + 1, hn⟩ (Nat.succ_ne_zero n)) (c1_of_last ⟨n + 1, hn⟩ h1) (iblk2 V c 0 ⟨n + 1, hn⟩) (iblk2 V c 1 ⟨n + 1, hn⟩) (outsAt2 c n (Nat.lt_of_succ_lt hn)).2)
    else
      (VO2.read (Elt F) VO2.junk,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (nc0_of_pos ⟨n + 1, hn⟩ (Nat.succ_ne_zero n)) (nc1_of_notlast ⟨n + 1, hn⟩ h1) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) :
    outsAt2 V c t.val t.isLt = (VO2.read (Elt F) VO2.junk,
      sout2_A c (grid2.coords t) (ms2_0 t) (hs2_0 t) (ms2_1 t) (hs2_1 t) (ms2_2 t) (hs2_2 t) scM2 (Memref.isWhole_whole _) (c0_of_zero t h0) (nc1_of_notlast t (by omega)) (iblk2 V c 0 t) (iblk2 V c 1 t)) := by
  obtain ⟨n, hn⟩ := t
  cases n with
  | zero => rfl
  | succ n => exact absurd h0 (Nat.succ_ne_zero n)

theorem outsAt2_B (c : Dev nD) (t : Fin cfg2.N) (h0 : t.val ≠ 0) (h1 : ¬t.val % 20 = 19) :
    outsAt2 V c t.val t.isLt = (VO2.read (Elt F) VO2.junk,
      sout2_B c (grid2.coords t) (ms2_0 t) (hs2_0 t) (ms2_1 t) (hs2_1 t) (ms2_2 t) (hs2_2 t) scM2 (Memref.isWhole_whole _) (nc0_of_pos t h0) (nc1_of_notlast t h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : t.val ≠ 0) (h1 : t.val % 20 = 19) :
    outsAt2 V c t.val t.isLt = (out2_C c (grid2.coords t) (ms2_0 t) (hs2_0 t) (ms2_1 t) (hs2_1 t) (ms2_2 t) (hs2_2 t) scM2 (Memref.isWhole_whole _) (nc0_of_pos t h0) (c1_of_last t h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (nc0_of_pos t h0) (c1_of_last t h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant and the proof data -/

/-- Before position `n`: at the first point the scoped buffers no window stages at anything and the generator register;
    afterwards the same with the scratch at what the point before left. -/
def PhiS (c : Dev nD) : (n : ℕ) → n ≤ cfg2.N → sProp 𝕄
  | 0, _ => Pipeline.ΦA spec2 c
  | n + 1, hn => iprop((Others2 c ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop((Others2 c ∗ owns (c : Thread nD τ) scM2 fullShare ((outsAt2 V c n hn).2)) ∗ (∃ r, prngReg c r)) := rfl
theorem PhiS_pos (c : Dev nD) (n : ℕ) (h : n ≤ cfg2.N) (hz : n ≠ 0) :
    PhiS V c n h = iprop((Others2 c ∗ owns (c : Thread nD τ) scM2 fullShare ((outsAt2 V c (n - 1) (by omega)).2)) ∗ (∃ r, prngReg c r)) := by
  cases n with
  | zero => exact absurd rfl hz
  | succ n => rfl

/-- The proof data of region 2 on core `c`: the arrays as the region finds them; after the body each input's buffer at
    its block and the output's at `outsAt2`'s first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the position says which case the point is in; the invariant hands the body the scratch at what
    the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  by_cases h0 : t.val = 0
  · have hnl : ¬t.val % 20 = 19 := by omega
    rw [Dat.leavesExact_idle (dat2 V c) 2 t (idleAt2_2 t (nc1_of_notlast t hnl)) (noFlush2_2 t (nc1_of_notlast t hnl))]
    rw [outsAt2_A V c t h0]
    unfold sout2_A; (try dsimp only)
    rw [PhiS_castSucc V c t, PhiS_zero V c _ _ h0]; unfold Pipeline.ΦA
    iintro ⟨⟨Hsr, Hg⟩, Ho, ⟨%d0, H0⟩, ⟨%d1, H1⟩, ⟨%d2, H2⟩⟩
    ihave Hs := (scopedRest2_split c) $$ Hsr
    icases Hs with ⟨Hoth, HS⟩
    iapply ((kernelRun2_A c (grid2.coords t) _ _ _ _ _ _ _ _ (c0_of_zero t h0) (nc1_of_notlast t hnl) (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [Hoth HS Hg]
    · isplitl [Hoth HS]
      · isplitl [Hoth]; · iexact Hoth
        unfold owns; iexists _; isplitr
        swap; · iexact HS
        ipureintro; exact View.read_writes_of_cover _ _ _ _ _ (scover2_A c _ _ _ _ _ _ _ _ _ _ _ _ _)
      iexact Hg
    isplitl [Ho]; · iexact Ho
    isplitl [H0]; · iexact H0
    isplitl [H1]; · iexact H1
    iexists _; iexact H2
  · by_cases h1 : t.val % 20 = 19
    · rw [show (dat2 V c).leavesExact 2 t = owns (c : Thread nD τ) (ms2_2 t) fullShare ((dat2 V c).after 2 t) from by
        unfold Dat.leavesExact; rw [liveAt2_2 t (c1_of_last t h1)], after2_2]
      rw [outsAt2_C V c t h0 h1]
      unfold out2_C sout2_C; (try dsimp only)
      rw [PhiS_castSucc V c t, PhiS_pos V c _ _ h0]
      iintro ⟨⟨⟨Hoth, HS⟩, Hg⟩, Ho, ⟨%d0, H0⟩, ⟨%d1, H1⟩, ⟨%d2, H2⟩⟩
      iapply ((kernelRun2_C c (grid2.coords t) _ _ _ _ _ _ _ _ (nc0_of_pos t h0) (c1_of_last t h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover2_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (nc1_of_notlast t h1)) (noFlush2_2 t (nc1_of_notlast t h1))]
      rw [outsAt2_B V c t h0 h1]
      unfold sout2_B; (try dsimp only)
      rw [PhiS_castSucc V c t, PhiS_pos V c _ _ h0]
      iintro ⟨⟨⟨Hoth, HS⟩, Hg⟩, Ho, ⟨%d0, H0⟩, ⟨%d1, H1⟩, ⟨%d2, H2⟩⟩
      iapply ((kernelRun2_B c (grid2.coords t) _ _ _ _ _ _ _ _ (nc0_of_pos t h0) (nc1_of_notlast t h1) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover2_B c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem Phi_in2 (c : Dev nD) : Pipeline.ΦA spec2 c ⊢ (dat2 V c).Φ 0 := by
  rw [show (dat2 V c).Φ 0 = PhiS V c 0 (Nat.zero_le _) from rfl, PhiS_zero V c 0 _ rfl]

/-- and after the last point the invariant gives it back, the scratch's contents forgotten. -/
theorem Phi_out2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 20 := N2_eq; omega)]
  unfold Pipeline.ΦA
  iintro ⟨⟨Hoth, HS⟩, Hg⟩
  isplitl [Hoth HS]
  · iapply (scopedRest2_join c)
    isplitl [Hoth]; · iexact Hoth
    iexists _; iexact HS
  iexact Hg

end Cert.KernelIdeal.Body

end
-- ==== Proof.KI.KernelRun.lean ====
/-
  The whole program's run, from the launch to the return.

  @main is three kernel regions with host operations between them. The contents of every unscoped buffer at each boundary
  are a fold from the launch memory: a stretch of host operations applies them; a region leaves its arrays at what its
  pipeline's write-backs leave (its inputs as entered, its output assembled from the blocks the grid points wrote) and every
  other buffer as entered. Each region is entered from "every unscoped buffer at the boundary's contents, the generator
  register at some state, nothing owed" and left in the same form at the next boundary's contents.

  `run_all`: every weakly fair execution from any launch memory terminates, nothing faulting, and every final memory holds
  every unscoped buffer at the last boundary's contents `W6`. The frame (the arguments end as launched, `W6_main_argK`) is
  read off it here; the result's value is read off it elsewhere.
-/
import proofs.«153876_j4595615007018_1_alg».proof.Proof.KI.ProjectBody
import proofs.«153876_j4595615007018_1_alg».proof.Proof.KI.ReluProjectBody
import proofs.«153876_j4595615007018_1_alg».proof.Proof.KI.MeanBody
import proofs.«153876_j4595615007018_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- A valuation read at the TensorCore's references (what a region's proof data take). -/
abbrev Vof (W : Dev nD → Valuation τ sig (Elt F)) : (c : Dev nD) → (b : Ref sig .tc) → Buf (Elt F) ((c : Thread nD τ).loc b) := fun c b => W c b

/-- Core `c`'s buffers at launch (region 0's entry). -/
abbrev W0 : Dev nD → Valuation τ sig (Elt F) := fun c b => m (c, b)
/-- At region 0's exit: its arrays at what the pipeline leaves (the inputs as entered, the output's write-backs folded),
    every other buffer as entered. -/
def W1 (c : Dev nD) : Valuation τ sig (Elt F) :=
  Pipeline.withArrays spec0 c (W0 m c) fun w => (dat0 (Vof (W0 m)) c).arrAt w cfg0.N
theorem W1_arr (c : Dev nD) (w : Fin cfg0.W) :
    W1 m c (Proc.devRef .tc (Pipeline.arrRef spec0 w)) = (dat0 (Vof (W0 m)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem hF0 (c : Dev nD) (w : Fin cfg0.W) : (dat0 (Vof (W0 m)) c).arrAt w cfg0.N = Vof (W1 m) c (Pipeline.arrRef spec0 w) :=
  (W1_arr m c w).symm
theorem hrest0 (c : Dev nD) : ∀ b, b ∉ Finset.univ.image (Pipeline.arrRef spec0) → Vof (W1 m) c b = Vof (W0 m) c b :=
  fun b hb => W1_of_ne m c b fun w e => hb (Finset.mem_image.mpr ⟨w, Finset.mem_univ _, e⟩)

/-- After the first stretch of host operations (region 1's entry). -/
abbrev W2 : Dev nD → Valuation τ sig (Elt F) := fun c => StableHlo.after hostOps1 (W1 m c)
/-- At region 1's exit: its arrays at what the pipeline leaves (the inputs as entered, the output's write-backs folded),
    every other buffer as entered. -/
def W3 (c : Dev nD) : Valuation τ sig (Elt F) :=
  Pipeline.withArrays spec1 c (W2 m c) fun w => (dat1 (Vof (W2 m)) c).arrAt w cfg1.N
theorem W3_arr (c : Dev nD) (w : Fin cfg1.W) :
    W3 m c (Proc.devRef .tc (Pipeline.arrRef spec1 w)) = (dat1 (Vof (W2 m)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (Vof (W2 m)) c).arrAt w cfg1.N = Vof (W3 m) c (Pipeline.arrRef spec1 w) :=
  (W3_arr m c w).symm
theorem hrest1 (c : Dev nD) : ∀ b, b ∉ Finset.univ.image (Pipeline.arrRef spec1) → Vof (W3 m) c b = Vof (W2 m) c b :=
  fun b hb => W3_of_ne m c b fun w e => hb (Finset.mem_image.mpr ⟨w, Finset.mem_univ _, e⟩)

/-- After the second stretch (region 2's entry). -/
abbrev W4 : Dev nD → Valuation τ sig (Elt F) := fun c => StableHlo.after hostOps2 (W3 m c)
/-- At region 2's exit: its arrays at what the pipeline leaves (the inputs as entered, the output's write-backs folded),
    every other buffer as entered. -/
def W5 (c : Dev nD) : Valuation τ sig (Elt F) :=
  Pipeline.withArrays spec2 c (W4 m c) fun w => (dat2 (Vof (W4 m)) c).arrAt w cfg2.N
theorem W5_arr (c : Dev nD) (w : Fin cfg2.W) :
    W5 m c (Proc.devRef .tc (Pipeline.arrRef spec2 w)) = (dat2 (Vof (W4 m)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem hF2 (c : Dev nD) (w : Fin cfg2.W) : (dat2 (Vof (W4 m)) c).arrAt w cfg2.N = Vof (W5 m) c (Pipeline.arrRef spec2 w) :=
  (W5_arr m c w).symm
theorem hrest2 (c : Dev nD) : ∀ b, b ∉ Finset.univ.image (Pipeline.arrRef spec2) → Vof (W5 m) c b = Vof (W4 m) c b :=
  fun b hb => W5_of_ne m c b fun w e => hb (Finset.mem_image.mpr ⟨w, Finset.mem_univ _, e⟩)

/-- After the last stretch: the end. -/
abbrev W6 : Dev nD → Valuation τ sig (Elt F) := fun c => StableHlo.after hostOps3 (W5 m c)

/-! ## The arguments end as launched -/

/-- `main_arg0` reaches the end as launched: no host operation writes it, and a region reads it through an input window or
    bypasses it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide : main_arg0 ∉ hostOps3_W)
    _ = W4 m c (Proc.devRef .tc main_arg0) := W5_of_ne m c main_arg0 (by decide)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := StableHlo.after_of_writes_sub hostOps1 _ hostOps1_writes (by decide : main_arg0 ∉ hostOps1_W)
    _ = W0 m c (Proc.devRef .tc main_arg0) := (W1_arr m c 0).trans (((dat0 (Vof (W0 m)) c).arrAt_in 0 rfl _).trans (A_eq0 (Vof (W0 m)) c 0))
    _ = m ((c : Thread nD τ).loc main_arg0) := rfl

/-- `main_arg1` reaches the end as launched: no host operation writes it, and a region reads it through an input window or
    bypasses it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide : main_arg1 ∉ hostOps3_W)
    _ = W4 m c (Proc.devRef .tc main_arg1) := W5_of_ne m c main_arg1 (by decide)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := StableHlo.after_of_writes_sub hostOps1 _ hostOps1_writes (by decide : main_arg1 ∉ hostOps1_W)
    _ = W0 m c (Proc.devRef .tc main_arg1) := W1_of_ne m c main_arg1 (by decide)
    _ = m ((c : Thread nD τ).loc main_arg1) := rfl

/-- `main_arg2` reaches the end as launched: no host operation writes it, and a region reads it through an input window or
    bypasses it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide : main_arg2 ∉ hostOps3_W)
    _ = W4 m c (Proc.devRef .tc main_arg2) := W5_of_ne m c main_arg2 (by decide)
    _ = W3 m c (Proc.devRef .tc main_arg2) := StableHlo.after_of_writes_sub hostOps2 _ hostOps2_writes (by decide : main_arg2 ∉ hostOps2_W)
    _ = W2 m c (Proc.devRef .tc main_arg2) := W3_of_ne m c main_arg2 (by decide)
    _ = W1 m c (Proc.devRef .tc main_arg2) := StableHlo.after_of_writes_sub hostOps1 _ hostOps1_writes (by decide : main_arg2 ∉ hostOps1_W)
    _ = W0 m c (Proc.devRef .tc main_arg2) := (W1_arr m c 1).trans (((dat0 (Vof (W0 m)) c).arrAt_in 1 rfl _).trans (A_eq0 (Vof (W0 m)) c 1))
    _ = m ((c : Thread nD τ).loc main_arg2) := rfl

/-- `main_arg3` reaches the end as launched: no host operation writes it, and a region reads it through an input window or
    bypasses it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide : main_arg3 ∉ hostOps3_W)
    _ = W4 m c (Proc.devRef .tc main_arg3) := W5_of_ne m c main_arg3 (by decide)
    _ = W3 m c (Proc.devRef .tc main_arg3) := StableHlo.after_of_writes_sub hostOps2 _ hostOps2_writes (by decide : main_arg3 ∉ hostOps2_W)
    _ = W2 m c (Proc.devRef .tc main_arg3) := W3_of_ne m c main_arg3 (by decide)
    _ = W1 m c (Proc.devRef .tc main_arg3) := StableHlo.after_of_writes_sub hostOps1 _ hostOps1_writes (by decide : main_arg3 ∉ hostOps1_W)
    _ = W0 m c (Proc.devRef .tc main_arg3) := W1_of_ne m c main_arg3 (by decide)
    _ = m ((c : Thread nD τ).loc main_arg3) := rfl

/-- `main_arg4` reaches the end as launched: no host operation writes it, and a region reads it through an input window or
    bypasses it. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide : main_arg4 ∉ hostOps3_W)
    _ = W4 m c (Proc.devRef .tc main_arg4) := W5_of_ne m c main_arg4 (by decide)
    _ = W3 m c (Proc.devRef .tc main_arg4) := StableHlo.after_of_writes_sub hostOps2 _ hostOps2_writes (by decide : main_arg4 ∉ hostOps2_W)
    _ = W2 m c (Proc.devRef .tc main_arg4) := (W3_arr m c 2).trans (((dat1 (Vof (W2 m)) c).arrAt_in 2 rfl _).trans (A_eq1 (Vof (W2 m)) c 2))
    _ = W1 m c (Proc.devRef .tc main_arg4) := StableHlo.after_of_writes_sub hostOps1 _ hostOps1_writes (by decide : main_arg4 ∉ hostOps1_W)
    _ = W0 m c (Proc.devRef .tc main_arg4) := W1_of_ne m c main_arg4 (by decide)
    _ = m ((c : Thread nD τ).loc main_arg4) := rfl

/-- `main_arg5` reaches the end as launched: no host operation writes it, and a region reads it through an input window or
    bypasses it. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide : main_arg5 ∉ hostOps3_W)
    _ = W4 m c (Proc.devRef .tc main_arg5) := W5_of_ne m c main_arg5 (by decide)
    _ = W3 m c (Proc.devRef .tc main_arg5) := StableHlo.after_of_writes_sub hostOps2 _ hostOps2_writes (by decide : main_arg5 ∉ hostOps2_W)
    _ = W2 m c (Proc.devRef .tc main_arg5) := W3_of_ne m c main_arg5 (by decide)
    _ = W1 m c (Proc.devRef .tc main_arg5) := StableHlo.after_of_writes_sub hostOps1 _ hostOps1_writes (by decide : main_arg5 ∉ hostOps1_W)
    _ = W0 m c (Proc.devRef .tc main_arg5) := W1_of_ne m c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vof (W0 m)) c
  | ⟨1, _⟩ => fun c => dat1 (Vof (W2 m)) c
  | ⟨2, _⟩ => fun c => dat2 (Vof (W4 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- REGION 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vof (W0 m)) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vof (W0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vof (W0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vof (W0 m) c) (Vof (W1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vof (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vof (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vof (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vof (W2 m) c) (Vof (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its arrays are
    split out of the unscoped buffers and put back at the exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vof (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (Vof (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vof (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in2 (Vof (W4 m)) c)
    unfold Pipeline.ΦA
    iintro ⟨Hp, -, Hr⟩
    isplitl [Hr]; · iexact Hr
    iexact Hp
  hout c := by
    refine BIBase.Entails.trans (Phi_out2 (Vof (W4 m)) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vof (W4 m) c) (Vof (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

/-- The last thread state without the dues: every unscoped buffer at `W6`, the generator register at some state. -/
abbrev Tₙ (c : Dev nD) : sProp 𝕄 := iprop(StableHlo.held (c : Thread nD τ) (Pipeline.ucRefs τ sig) (W6 m c) ∗ ∃ r, prngReg c r)

/-- What the run leaves: on every core, every unscoped TensorCore buffer at `W6`. -/
def Final (s : MemSt nD τ sig (Elt F)) : Prop :=
  ∀ (c : Dev nD), ∀ b ∈ Pipeline.ucRefs τ sig, s.mem (((c : Thread nD τ)).1, b) = W6 m c b

set_option backward.isDefEq.respectTransparency.types false in
/-- THE RUN. -/
theorem run_all : θ_run defs (onTc (τ := τ) (main (F := F))) ⟨m, fun _ => 0, ρ⟩ (fun r => Final m r.2) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: from any launch memory every weakly fair execution terminates, nothing faulting, with the six argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.KernelIdeal.Body

end
-- ==== Proof.KI.RunArgs.lean ====
/-
  Every argument array is still at its launch contents at each boundary between @main's items: no host operation writes
  an argument, and a region reads an argument through an input window or bypasses it.
-/
import proofs.«153876_j4595615007018_1_alg».proof.Proof.KI.KernelRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
theorem W1_main_arg0 (c : Dev nD) : W1 m c (Proc.devRef .tc main_arg0) = m ((c : Thread nD τ).loc main_arg0) :=
  ((W1_arr m c 0).trans (((dat0 (Vof (W0 m)) c).arrAt_in 0 rfl _).trans (A_eq0 (Vof (W0 m)) c 0)) : W1 m c (Proc.devRef .tc main_arg0) = W0 m c (Proc.devRef .tc main_arg0)).trans (rfl)
theorem W2_main_arg0 (c : Dev nD) : W2 m c (Proc.devRef .tc main_arg0) = m ((c : Thread nD τ).loc main_arg0) :=
  (StableHlo.after_of_writes_sub hostOps1 _ hostOps1_writes (by decide : main_arg0 ∉ hostOps1_W) : W2 m c (Proc.devRef .tc main_arg0) = W1 m c (Proc.devRef .tc main_arg0)).trans (W1_main_arg0 m c)
theorem W3_main_arg0 (c : Dev nD) : W3 m c (Proc.devRef .tc main_arg0) = m ((c : Thread nD τ).loc main_arg0) :=
  (W3_of_ne m c main_arg0 (by decide) : W3 m c (Proc.devRef .tc main_arg0) = W2 m c (Proc.devRef .tc main_arg0)).trans (W2_main_arg0 m c)
theorem W4_main_arg0 (c : Dev nD) : W4 m c (Proc.devRef .tc main_arg0) = m ((c : Thread nD τ).loc main_arg0) :=
  (StableHlo.after_of_writes_sub hostOps2 _ hostOps2_writes (by decide : main_arg0 ∉ hostOps2_W) : W4 m c (Proc.devRef .tc main_arg0) = W3 m c (Proc.devRef .tc main_arg0)).trans (W3_main_arg0 m c)
theorem W5_main_arg0 (c : Dev nD) : W5 m c (Proc.devRef .tc main_arg0) = m ((c : Thread nD τ).loc main_arg0) :=
  (W5_of_ne m c main_arg0 (by decide) : W5 m c (Proc.devRef .tc main_arg0) = W4 m c (Proc.devRef .tc main_arg0)).trans (W4_main_arg0 m c)

theorem W1_main_arg1 (c : Dev nD) : W1 m c (Proc.devRef .tc main_arg1) = m ((c : Thread nD τ).loc main_arg1) :=
  (W1_of_ne m c main_arg1 (by decide) : W1 m c (Proc.devRef .tc main_arg1) = W0 m c (Proc.devRef .tc main_arg1)).trans (rfl)
theorem W2_main_arg1 (c : Dev nD) : W2 m c (Proc.devRef .tc main_arg1) = m ((c : Thread nD τ).loc main_arg1) :=
  (StableHlo.after_of_writes_sub hostOps1 _ hostOps1_writes (by decide : main_arg1 ∉ hostOps1_W) : W2 m c (Proc.devRef .tc main_arg1) = W1 m c (Proc.devRef .tc main_arg1)).trans (W1_main_arg1 m c)
theorem W3_main_arg1 (c : Dev nD) : W3 m c (Proc.devRef .tc main_arg1) = m ((c : Thread nD τ).loc main_arg1) :=
  (W3_of_ne m c main_arg1 (by decide) : W3 m c (Proc.devRef .tc main_arg1) = W2 m c (Proc.devRef .tc main_arg1)).trans (W2_main_arg1 m c)
theorem W4_main_arg1 (c : Dev nD) : W4 m c (Proc.devRef .tc main_arg1) = m ((c : Thread nD τ).loc main_arg1) :=
  (StableHlo.after_of_writes_sub hostOps2 _ hostOps2_writes (by decide : main_arg1 ∉ hostOps2_W) : W4 m c (Proc.devRef .tc main_arg1) = W3 m c (Proc.devRef .tc main_arg1)).trans (W3_main_arg1 m c)
theorem W5_main_arg1 (c : Dev nD) : W5 m c (Proc.devRef .tc main_arg1) = m ((c : Thread nD τ).loc main_arg1) :=
  (W5_of_ne m c main_arg1 (by decide) : W5 m c (Proc.devRef .tc main_arg1) = W4 m c (Proc.devRef .tc main_arg1)).trans (W4_main_arg1 m c)

theorem W1_main_arg2 (c : Dev nD) : W1 m c (Proc.devRef .tc main_arg2) = m ((c : Thread nD τ).loc main_arg2) :=
  ((W1_arr m c 1).trans (((dat0 (Vof (W0 m)) c).arrAt_in 1 rfl _).trans (A_eq0 (Vof (W0 m)) c 1)) : W1 m c (Proc.devRef .tc main_arg2) = W0 m c (Proc.devRef .tc main_arg2)).trans (rfl)
theorem W2_main_arg2 (c : Dev nD) : W2 m c (Proc.devRef .tc main_arg2) = m ((c : Thread nD τ).loc main_arg2) :=
  (StableHlo.after_of_writes_sub hostOps1 _ hostOps1_writes (by decide : main_arg2 ∉ hostOps1_W) : W2 m c (Proc.devRef .tc main_arg2) = W1 m c (Proc.devRef .tc main_arg2)).trans (W1_main_arg2 m c)
theorem W3_main_arg2 (c : Dev nD) : W3 m c (Proc.devRef .tc main_arg2) = m ((c : Thread nD τ).loc main_arg2) :=
  (W3_of_ne m c main_arg2 (by decide) : W3 m c (Proc.devRef .tc main_arg2) = W2 m c (Proc.devRef .tc main_arg2)).trans (W2_main_arg2 m c)
theorem W4_main_arg2 (c : Dev nD) : W4 m c (Proc.devRef .tc main_arg2) = m ((c : Thread nD τ).loc main_arg2) :=
  (StableHlo.after_of_writes_sub hostOps2 _ hostOps2_writes (by decide : main_arg2 ∉ hostOps2_W) : W4 m c (Proc.devRef .tc main_arg2) = W3 m c (Proc.devRef .tc main_arg2)).trans (W3_main_arg2 m c)
theorem W5_main_arg2 (c : Dev nD) : W5 m c (Proc.devRef .tc main_arg2) = m ((c : Thread nD τ).loc main_arg2) :=
  (W5_of_ne m c main_arg2 (by decide) : W5 m c (Proc.devRef .tc main_arg2) = W4 m c (Proc.devRef .tc main_arg2)).trans (W4_main_arg2 m c)

theorem W1_main_arg3 (c : Dev nD) : W1 m c (Proc.devRef .tc main_arg3) = m ((c : Thread nD τ).loc main_arg3) :=
  (W1_of_ne m c main_arg3 (by decide) : W1 m c (Proc.devRef .tc main_arg3) = W0 m c (Proc.devRef .tc main_arg3)).trans (rfl)
theorem W2_main_arg3 (c : Dev nD) : W2 m c (Proc.devRef .tc main_arg3) = m ((c : Thread nD τ).loc main_arg3) :=
  (StableHlo.after_of_writes_sub hostOps1 _ hostOps1_writes (by decide : main_arg3 ∉ hostOps1_W) : W2 m c (Proc.devRef .tc main_arg3) = W1 m c (Proc.devRef .tc main_arg3)).trans (W1_main_arg3 m c)
theorem W3_main_arg3 (c : Dev nD) : W3 m c (Proc.devRef .tc main_arg3) = m ((c : Thread nD τ).loc main_arg3) :=
  (W3_of_ne m c main_arg3 (by decide) : W3 m c (Proc.devRef .tc main_arg3) = W2 m c (Proc.devRef .tc main_arg3)).trans (W2_main_arg3 m c)
theorem W4_main_arg3 (c : Dev nD) : W4 m c (Proc.devRef .tc main_arg3) = m ((c : Thread nD τ).loc main_arg3) :=
  (StableHlo.after_of_writes_sub hostOps2 _ hostOps2_writes (by decide : main_arg3 ∉ hostOps2_W) : W4 m c (Proc.devRef .tc main_arg3) = W3 m c (Proc.devRef .tc main_arg3)).trans (W3_main_arg3 m c)
theorem W5_main_arg3 (c : Dev nD) : W5 m c (Proc.devRef .tc main_arg3) = m ((c : Thread nD τ).loc main_arg3) :=
  (W5_of_ne m c main_arg3 (by decide) : W5 m c (Proc.devRef .tc main_arg3) = W4 m c (Proc.devRef .tc main_arg3)).trans (W4_main_arg3 m c)

theorem W1_main_arg4 (c : Dev nD) : W1 m c (Proc.devRef .tc main_arg4) = m ((c : Thread nD τ).loc main_arg4) :=
  (W1_of_ne m c main_arg4 (by decide) : W1 m c (Proc.devRef .tc main_arg4) = W0 m c (Proc.devRef .tc main_arg4)).trans (rfl)
theorem W2_main_arg4 (c : Dev nD) : W2 m c (Proc.devRef .tc main_arg4) = m ((c : Thread nD τ).loc main_arg4) :=
  (StableHlo.after_of_writes_sub hostOps1 _ hostOps1_writes (by decide : main_arg4 ∉ hostOps1_W) : W2 m c (Proc.devRef .tc main_arg4) = W1 m c (Proc.devRef .tc main_arg4)).trans (W1_main_arg4 m c)
theorem W3_main_arg4 (c : Dev nD) : W3 m c (Proc.devRef .tc main_arg4) = m ((c : Thread nD τ).loc main_arg4) :=
  ((W3_arr m c 2).trans (((dat1 (Vof (W2 m)) c).arrAt_in 2 rfl _).trans (A_eq1 (Vof (W2 m)) c 2)) : W3 m c (Proc.devRef .tc main_arg4) = W2 m c (Proc.devRef .tc main_arg4)).trans (W2_main_arg4 m c)
theorem W4_main_arg4 (c : Dev nD) : W4 m c (Proc.devRef .tc main_arg4) = m ((c : Thread nD τ).loc main_arg4) :=
  (StableHlo.after_of_writes_sub hostOps2 _ hostOps2_writes (by decide : main_arg4 ∉ hostOps2_W) : W4 m c (Proc.devRef .tc main_arg4) = W3 m c (Proc.devRef .tc main_arg4)).trans (W3_main_arg4 m c)
theorem W5_main_arg4 (c : Dev nD) : W5 m c (Proc.devRef .tc main_arg4) = m ((c : Thread nD τ).loc main_arg4) :=
  (W5_of_ne m c main_arg4 (by decide) : W5 m c (Proc.devRef .tc main_arg4) = W4 m c (Proc.devRef .tc main_arg4)).trans (W4_main_arg4 m c)

theorem W1_main_arg5 (c : Dev nD) : W1 m c (Proc.devRef .tc main_arg5) = m ((c : Thread nD τ).loc main_arg5) :=
  (W1_of_ne m c main_arg5 (by decide) : W1 m c (Proc.devRef .tc main_arg5) = W0 m c (Proc.devRef .tc main_arg5)).trans (rfl)
theorem W2_main_arg5 (c : Dev nD) : W2 m c (Proc.devRef .tc main_arg5) = m ((c : Thread nD τ).loc main_arg5) :=
  (StableHlo.after_of_writes_sub hostOps1 _ hostOps1_writes (by decide : main_arg5 ∉ hostOps1_W) : W2 m c (Proc.devRef .tc main_arg5) = W1 m c (Proc.devRef .tc main_arg5)).trans (W1_main_arg5 m c)
theorem W3_main_arg5 (c : Dev nD) : W3 m c (Proc.devRef .tc main_arg5) = m ((c : Thread nD τ).loc main_arg5) :=
  (W3_of_ne m c main_arg5 (by decide) : W3 m c (Proc.devRef .tc main_arg5) = W2 m c (Proc.devRef .tc main_arg5)).trans (W2_main_arg5 m c)
theorem W4_main_arg5 (c : Dev nD) : W4 m c (Proc.devRef .tc main_arg5) = m ((c : Thread nD τ).loc main_arg5) :=
  (StableHlo.after_of_writes_sub hostOps2 _ hostOps2_writes (by decide : main_arg5 ∉ hostOps2_W) : W4 m c (Proc.devRef .tc main_arg5) = W3 m c (Proc.devRef .tc main_arg5)).trans (W3_main_arg5 m c)
theorem W5_main_arg5 (c : Dev nD) : W5 m c (Proc.devRef .tc main_arg5) = m ((c : Thread nD τ).loc main_arg5) :=
  (W5_of_ne m c main_arg5 (by decide) : W5 m c (Proc.devRef .tc main_arg5) = W4 m c (Proc.devRef .tc main_arg5)).trans (W4_main_arg5 m c)

end Cert.KernelIdeal.Body

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.KI.ProjectValue.lean ====
/-
  The first projection kernel (region 0): the value of its output array.

  Every grid point stores, into its own block of 5000 rows, the matrix product of its block of rows of the node
  features and the whole 128×128 weight matrix; at the exact extended reals the narrowing of both factors is the
  identity and the accumulator is zero, so entry (p, q) of the block is the sum over e of x(p, e) * w(e, q). The twenty
  blocks tile the rows, so the output array ends as the product of the two argument arrays, entry by entry:
    result (n, q) = sum over k < 128 of features (n, k) * weights (k, q).

  Here: the body's found piece is its one store's payload; the payload read at an entry; the two input blocks read at
  an entry; what a point writes back; the cover of the rows by the blocks; the array.
-/
import proofs.«153876_j4595615007018_1_alg».proof.Proof.KI.ProjectBody
import proofs.«153876_j4595615007018_1_alg».proof.Proof.LibMatmulNN
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe
open Idealize.ShloMosaic.ValueIdx
open Idealize.ShloMosaic.Pipeline (Dat Cfg Window)

section Generic
variable {F : FTy → Type} [FloatOps F] [Named F]

/-- The zero offsets, as a constant function. -/
theorem hz2 : (![0, 0] : Fin 2 → Nat) = fun _ => 0 := funext fun a => by fin_cases a <;> rfl

/-- The pieces the body's run finds, read back, are its one store's payload of the two blocks it loaded. -/
theorem out0_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) :
    out0 c i arg1 harg1 arg2 harg2 arg3 harg3 x0 x1 = k0_pay1 x0 x1 := by
  unfold out0
  rw [View.read_writes_eq_canon _ _ _ (cover0 c i arg1 harg1 arg2 harg2 arg3 harg3 x0 x1)]
  unfold kernelRun0
  dsimp only
  rw [View.canon_unit_zero hz2]
  simp only [View.readAt_eq_ld, harg1.read_unread, harg2.read_unread, View.ld_unit_zero (S := S5000x128) hz2, View.ld_unit_zero (S := S128x128) hz2]

/-- So point `t` leaves in the output's buffer the payload of its two input blocks. -/
theorem outAt0_eq (V : (c : Dev nD) → (b : Ref sig .tc) → Buf (Elt F) ((c : Thread nD τ).loc b)) (c : Dev nD) (t : Fin cfg0.N) :
    outAt0 V c t = k0_pay1 (iblk0 V c 0 t) (iblk0 V c 1 t) := by
  unfold outAt0
  exact out0_eq c _ _ _ _ _ _ _ _ _

end Generic

/-- The matmul's dimension numbers are "rows against columns". -/
theorem dot_eq : dot_S5000x128_S128x128_S5000x128_1_0_0_1_n_n = LibMatmulNN.dims (M := 5000) (N := 128) (K := 128) dot_S5000x128_S128x128_S5000x128_1_0_0_1_n_n_wf := rfl

/-- The payload at entry `(p, q)`: row `p` of the first block against column `q` of the second. -/
theorem k0_pay1_apply (x0 : Vec Ideal S5000x128 .f32) (x1 : Vec Ideal S128x128 .f32) (p : Fin 5000) (q : Fin 128) :
    k0_pay1 (F := Ideal) x0 x1 (ix2 p q) = ∑ e : Fin 128, x0 (ix2 p e) * x1 (ix2 e q) := by
  unfold k0_pay1
  exact LibMatmulNN.matmul_zero_apply (M := 5000) (N := 128) (K := 128) dot_S5000x128_S128x128_S5000x128_1_0_0_1_n_n_wf none
    (truncf .bf16 x0 bitsLt_bf16_f32) (truncf .bf16 x1 bitsLt_bf16_f32) p q

/-! ## From the blocks to the array -/

section Array
variable (V : (c : Dev nD) → (b : Ref sig .tc) → Buf (Elt Ideal) ((c : Thread nD τ).loc b))

/-- Rows against columns: entry `(n, q)` is row `n` of the feature array against column `q` of the weight matrix. -/
def rowsByCols (a : S100000x128.Idx → EReal) (w : S128x128.Idx → EReal) : S100000x128.Idx → EReal :=
  fun i => ∑ k : Fin 128, a (ix2 (i 0) k) * w (ix2 k (i 1))

theorem rowsByCols_def (a : S100000x128.Idx → EReal) (w : S128x128.Idx → EReal) :
    rowsByCols a w = fun i => ∑ k : Fin 128, a (ix2 (i 0) k) * w (ix2 k (i 1)) := rfl

/-- The payload at an entry of the block, when the two blocks are known where the entry reads them. -/
theorem k0_pay1_at (x0 : Vec Ideal S5000x128 .f32) (x1 : Vec Ideal S128x128 .f32)
    (a : S100000x128.Idx → EReal) (w : S128x128.Idx → EReal) (y : S5000x128.Idx) (i : S100000x128.Idx)
    (h0 : ∀ e : Fin 128, x0 (ix2 (y 0) e) = a (ix2 (i 0) e)) (h1 : ∀ e : Fin 128, x1 (ix2 e (y 1)) = w (ix2 e (i 1))) :
    k0_pay1 (F := Ideal) x0 x1 y = rowsByCols a w i := by
  obtain ⟨p, q, rfl⟩ : ∃ (p : Fin 5000) (q : Fin 128), y = ix2 p q := ⟨y 0, y 1, eq_ix2 y⟩
  refine (k0_pay1_apply x0 x1 p q).trans ?_
  unfold rowsByCols
  exact Finset.sum_congr rfl fun e _ => by rw [h0 e, h1 e]

/-- The printed index maps, decided over the grid: point `t` reads row block `t` of the features and the whole weight
    matrix, and writes row block `t` of the result. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two argument arrays as the region finds them. -/
theorem flushed0_eq (c : Dev nD) (t : Fin cfg0.N) :
    (dat0 (F := Ideal) V c).flushed 2 t = ((cfg0.win 2).blk t).view.read (Elt Ideal) (rowsByCols (V c main_arg0) (V c main_arg2)) := by
  show (cfg0.win 2).cut (grid0.coords t) ((dat0 V c).after 2 t) = _
  rw [after0_2, outAt0_eq]
  obtain ⟨e0, e1, e2, e3, e4, e5⟩ := idx_facts0 t
  funext j
  rw [View.read_apply]
  show k0_pay1 (F := Ideal) (iblk0 V c 0 t) (iblk0 V c 1 t) j = rowsByCols (V c main_arg0) (V c main_arg2) (((cfg0.win 2).blk t).view.emb j)
  refine k0_pay1_at (iblk0 V c 0 t) (iblk0 V c 1 t) (V c main_arg0) (V c main_arg2) j (((cfg0.win 2).blk t).view.emb j) (fun e => ?_) (fun e => ?_)
  · unfold iblk0
    rw [View.read_apply]
    show V c main_arg0 (((cfg0.win 0).blk t).view.emb (ix2 (j 0) e)) = V c main_arg0 (ix2 ((((cfg0.win 2).blk t).view.emb j) 0) e)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * e.val = e.val; omega
  · unfold iblk0
    rw [View.read_apply]
    show V c main_arg2 (((cfg0.win 1).blk t).view.emb (ix2 e (j 1))) = V c main_arg2 (ix2 e ((((cfg0.win 2).blk t).view.emb j) 1))
    refine congrArg _ (funext fun a => Fin.ext ?_)
    match a with
    | ⟨0, _⟩ => show win0_1.index t (0 : Fin 2) * 128 + 1 * e.val = e.val; omega
    | ⟨1, _⟩ => show win0_1.index t (1 : Fin 2) * 128 + 1 * (j 1).val = win0_2.index t (1 : Fin 2) * 128 + 1 * (j 1).val; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row is in some point's block: row `r` in that of point `r / 5000`. -/
theorem cover_arr0 (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after the region: the product of the two argument arrays as the region finds them. -/
theorem arr0_eq (c : Dev nD) :
    (dat0 (F := Ideal) V c).arrAt 2 cfg0.N = rowsByCols (V c main_arg0) (V c main_arg2) :=
  (dat0 (F := Ideal) V c).arrAt_eq_of_cover 2 (rowsByCols (V c main_arg0) (V c main_arg2)) (fun t _ => flushed0_eq V c t) cover_arr0

end Array

end Cert.KernelIdeal.Body

end
-- ==== Proof.GcnSpec.lean ====
/-
  The two-layer graph convolution as one function of the six argument arrays.

  A graph convolution layer sends node features h to  D^{-1/2} (A + I) D^{-1/2} h : every edge
  (s, d) of the edge list, and one self-loop (n, n) per node, adds row s of h, scaled by
  1/sqrt(deg s) * 1/sqrt(deg d), into row d, where deg counts the edges (self-loops included)
  that end at a node. This file names that aggregation "agg" and writes it as the very chain of
  host operations the reference program prints for it, with the feature array a variable; nothing
  below ever opens it: both layers, and both programs, apply the same chain, so all that is ever
  needed of "agg" is that equal feature arrays give equal results.

  Over it the network is stated index by index:
    layer1 (n, k) = max (agg (x . W1) (n, k) + b1 k) 0
    spec q        = (sum over the 100000 nodes n of (agg (layer1 . W2) (n, q) + b2 q)) / 100000
  with the matrix products written as sums over the 128 contracted coordinates.
-/
import proofs.«153876_j4595615007018_1_alg».proof.Proof.Gen.ReferenceIdeal
import Idealize.ShloMosaic.Lib.StableHlo.Run
import Idealize.ShloMosaic.Lib.ValueIdx
import Idealize.ShloMosaic.PureOps.Ideal.Laws

noncomputable section

namespace Cert.GcnSpec

open Cert.ReferenceIdeal Cert.ReferenceIdeal.Gen Idealize.ShloMosaic Idealize.ShloMosaic.TcCoe Idealize.SL.Sem Idealize.ShloMosaic.StableHlo
open Idealize.ShloMosaic.ValueIdx (ix1 ix2)

variable {F : FTy → Type} [FloatOps F]

/-- Node features, one row of 128 per node. -/
abbrev Feat (F : FTy → Type) [FloatOps F] : Type := (⟨S100000x128, .f32⟩ : BufTy).Contents (Elt F)
/-- The edge list: row 0 the sources, row 1 the destinations. -/
abbrev Edges (F : FTy → Type) [FloatOps F] : Type := (⟨S2x1600000, .i32⟩ : BufTy).Contents (Elt F)
/-- A weight matrix. -/
abbrev Weights (F : FTy → Type) [FloatOps F] : Type := (⟨S128x128, .f32⟩ : BufTy).Contents (Elt F)
/-- A bias row, and the shape of the result. -/
abbrev Row (F : FTy → Type) [FloatOps F] : Type := (⟨S128, .f32⟩ : BufTy).Contents (Elt F)
/-- One node index per edge and per self-loop. -/
abbrev Ends (F : FTy → Type) [FloatOps F] : Type := (⟨S1700000, .i32⟩ : BufTy).Contents (Elt F)

/-- The source of every edge, then one self-loop per node. -/
def src (e : Edges F) : Ends F :=
  concatenate S1700000 0 [⟨S1600000, (shapeCast _ (extractStridedSlice S1x1600000 ![0, 0] (e) slices_S2x1600000_S1x1600000_0_0) shapeCasts_S1x1600000_S1600000)⟩, ⟨S100000, (iotaInDim S100000 32 0)⟩] concatenates_S1600000_S100000_S1700000_d0

/-- The destination of every edge, then one self-loop per node. -/
def dst (e : Edges F) : Ends F :=
  concatenate S1700000 0 [⟨S1600000, (shapeCast _ (extractStridedSlice S1x1600000 ![1, 0] (e) slices_S2x1600000_S1x1600000_1_0) shapeCasts_S1x1600000_S1600000)⟩, ⟨S100000, (iotaInDim S100000 32 0)⟩] concatenates_S1600000_S100000_S1700000_d0

/-- A node index below zero counts from the end: add the number of nodes to it. -/
def wrap (v : Ends F) : Ends F :=
  select (cmpi .slt v (broadcastInDim S1700000 ![] bcast_S_S1700000 (constantI S_ 32 0#32))) (addi v (broadcastInDim S1700000 ![] bcast_S_S1700000 (constantI S_ 32 100000#32))) v

/-- Node indices as a column of one-coordinate index vectors, the form a gather or scatter reads. -/
def col (v : Ends F) : (⟨S1700000x1, .i32⟩ : BufTy).Contents (Elt F) :=
  broadcastInDim S1700000x1 ![0] bcast_S1700000_S1700000x1_0 v

/-- 1/sqrt(deg n): deg n adds a one for every edge or self-loop that ends at n. -/
def invSqrtDeg (e : Edges F) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (col (F := F) (dst (F := F) e)) (broadcastInDim S1700000 ![] bcast_S_S1700000 (constant S_ .f32 0x3F800000#32)))

/-- The weight of each edge: 1/sqrt(deg of its source) * 1/sqrt(deg of its destination). -/
def norm (e : Edges F) : (⟨S1700000, .f32⟩ : BufTy).Contents (Elt F) :=
  mulf (Host.gather gather_S100000_S1700000x1_S1700000_n_0_n_n_0_1_1 (invSqrtDeg (F := F) e) (col (F := F) (wrap (F := F) (src (F := F) e)))) (Host.gather gather_S100000_S1700000x1_S1700000_n_0_n_n_0_1_1 (invSqrtDeg (F := F) e) (col (F := F) (wrap (F := F) (dst (F := F) e))))

/-- The aggregation of one layer: every edge and self-loop adds the row of "h" at its source, times the
    edge's weight, into the row at its destination. -/
def agg (h : Feat F) (e : Edges F) : Feat F :=
  Host.scatterAdd scatter_S100000x128_S1700000x1_S1700000x128_1_0_0_1 (broadcastInDim S100000x128 ![] bcast_S_S100000x128 (constant S_ .f32 0x00000000#32)) (col (F := F) (dst (F := F) e)) (mulf (Host.gather gather_S100000x128_S1700000x1_S1700000x128_1_0_n_n_0_1_1128 h (col (F := F) (wrap (F := F) (src (F := F) e)))) (broadcastInDim S1700000x128 ![0, 1] bcast_S1700000x1_S1700000x128_0_1 (broadcastInDim S1700000x1 ![0] bcast_S1700000_S1700000x1_0 (norm (F := F) e))))

/-- The product of a feature array and a weight matrix, entry by entry. -/
def matmul (a : Feat Ideal) (w : Weights Ideal) : Feat Ideal :=
  fun i => ∑ k : Fin 128, a (ix2 (i 0) k) * w (ix2 k (i 1))

/-- The first layer: aggregate x . W1, add the bias to every row, keep the positive part. -/
def layer1 (x : Feat Ideal) (e : Edges Ideal) (W1 : Weights Ideal) (b1 : Row Ideal) : Feat Ideal :=
  fun i => max (agg (F := Ideal) (matmul x W1) e i + b1 (ix1 (i 1))) 0

/-- The network's result: the second layer's rows averaged over the nodes; the quotient is by the
    float word of 100000, kept as a word. -/
def spec (x : Feat Ideal) (e : Edges Ideal) (W1 : Weights Ideal) (b1 : Row Ideal) (W2 : Weights Ideal) (b2 : Row Ideal) : Row Ideal :=
  fun q => Ideal.div (∑ n : Fin 100000, (agg (F := Ideal) (matmul (layer1 x e W1 b1) W2) e (ix2 n (q 0)) + b2 (ix1 (q 0)))) (Ideal.ofBits .f32 0x47C35000#32)

end Cert.GcnSpec

end
-- ==== Proof.KI.HostStretches.lean ====
/-
  The kernel program's host operations between its three regions, read as values.

  Between the regions the program runs, on the host, the same chain of operations the
  specification names "agg" (first on the first region's product, then on the second region's),
  and three reshapes: each bias row [128] to [1,128] before the region that adds it, and the last
  region's [1,128] result to [128]. Each is stated over arbitrary buffer contents X: the aggregation
  as "agg" of what X holds at the product and at the edge list, the reshapes entry by entry.
-/
import proofs.«153876_j4595615007018_1_alg».proof.Proof.Gen.KernelIdeal.Launch
import proofs.«153876_j4595615007018_1_alg».proof.Proof.GcnSpec
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx (ix1 ix2)

/-- A row of 128 reshaped to [1,128], read at (0, k), is the row at k. -/
theorem row_to_1x128 (v : S128.Idx → EReal) (k : Fin 128) :
    shapeCast S1x128 v shapeCasts_S128_S1x128 (ix2 (0 : Fin 1) k) = v (ix1 k) :=
  shapeCast_apply v shapeCasts_S128_S1x128 (ix2 (0 : Fin 1) k) (ix1 k)
    (by rewrite [Shape.rowMajor_val_one, Shape.rowMajor_val_two]; show k.val = 0 * 128 + k.val; omega)

/-- A [1,128] array reshaped to a row of 128, read at q, is the array at (0, q). -/
theorem row_of_1x128 (v : S1x128.Idx → EReal) (q : Fin 128) :
    shapeCast S128 v shapeCasts_S1x128_S128 (ix1 q) = v (ix2 (0 : Fin 1) q) :=
  shapeCast_apply v shapeCasts_S1x128_S128 (ix1 q) (ix2 (0 : Fin 1) q)
    (by rewrite [Shape.rowMajor_val_one, Shape.rowMajor_val_two]; show 0 * 128 + q.val = q.val; omega)

/-- After the first stretch the first bias row sits in its [1,128] buffer. -/
theorem stretch1_bias (X : Valuation τ sig (Elt Ideal)) (k : Fin 128) :
    StableHlo.after (hostOps1 (F := Ideal)) X (Proc.devRef .tc main_v41) (ix2 (0 : Fin 1) k)
      = X (Proc.devRef .tc main_arg3) (ix1 k) := by
  have e : StableHlo.after (hostOps1 (F := Ideal)) X (Proc.devRef .tc main_v41)
      = shapeCast S1x128 (X (Proc.devRef .tc main_arg3)) shapeCasts_S128_S1x128 := by
    after_results_simp
    rfl
  rw [e]
  exact row_to_1x128 _ k

/-- After the second stretch the second bias row sits in its [1,128] buffer. -/
theorem stretch2_bias (X : Valuation τ sig (Elt Ideal)) (k : Fin 128) :
    StableHlo.after (hostOps2 (F := Ideal)) X (Proc.devRef .tc main_v83) (ix2 (0 : Fin 1) k)
      = X (Proc.devRef .tc main_arg5) (ix1 k) := by
  have e : StableHlo.after (hostOps2 (F := Ideal)) X (Proc.devRef .tc main_v83)
      = shapeCast S1x128 (X (Proc.devRef .tc main_arg5)) shapeCasts_S128_S1x128 := by
    after_results_simp
    rfl
  rw [e]
  exact row_to_1x128 _ k

/-- The last operation hands the last region's [1,128] result over as a row of 128. -/
theorem stretch3 (X : Valuation τ sig (Elt Ideal)) (q : Fin 128) :
    StableHlo.after (hostOps3 (F := Ideal)) X (Proc.devRef .tc main_v85) (ix1 q)
      = X (Proc.devRef .tc main_v84) (ix2 (0 : Fin 1) q) := by
  have e : StableHlo.after (hostOps3 (F := Ideal)) X (Proc.devRef .tc main_v85)
      = shapeCast S128 (X (Proc.devRef .tc main_v84)) shapeCasts_S1x128_S128 := by
    after_results_simp
    rfl
  rw [e]
  exact row_of_1x128 _ q

/-! The two programs print the same four dimension records for the aggregation's gathers and scatters
    (small literal structures over the same shapes): equal, record by record. -/
theorem record1_eq : Cert.KernelIdeal.scatter_S100000_S1700000x1_S1700000_n_0_0_1 = Cert.ReferenceIdeal.scatter_S100000_S1700000x1_S1700000_n_0_0_1 := rfl
theorem record2_eq : Cert.KernelIdeal.gather_S100000_S1700000x1_S1700000_n_0_n_n_0_1_1 = Cert.ReferenceIdeal.gather_S100000_S1700000x1_S1700000_n_0_n_n_0_1_1 := rfl
theorem record3_eq : Cert.KernelIdeal.gather_S100000x128_S1700000x1_S1700000x128_1_0_n_n_0_1_1128 = Cert.ReferenceIdeal.gather_S100000x128_S1700000x1_S1700000x128_1_0_n_n_0_1_1128 := rfl
theorem record4_eq : Cert.KernelIdeal.scatter_S100000x128_S1700000x1_S1700000x128_1_0_0_1 = Cert.ReferenceIdeal.scatter_S100000x128_S1700000x1_S1700000x128_1_0_0_1 := rfl

/-- The first stretch aggregates the first region's product. -/
theorem stretch1_agg (X : Valuation τ sig (Elt Ideal)) :
    StableHlo.after (hostOps1 (F := Ideal)) X (Proc.devRef .tc main_v40)
      = Cert.GcnSpec.agg (F := Ideal) (X (Proc.devRef .tc main_v0)) (X (Proc.devRef .tc main_arg1)) := by
  after_results_simp
  simp only [record1_eq, record2_eq, record3_eq, record4_eq]
  unfold Cert.GcnSpec.agg Cert.GcnSpec.norm Cert.GcnSpec.invSqrtDeg Cert.GcnSpec.col Cert.GcnSpec.wrap Cert.GcnSpec.src Cert.GcnSpec.dst
  rfl

/-- The second stretch aggregates the second region's product. -/
theorem stretch2_agg (X : Valuation τ sig (Elt Ideal)) :
    StableHlo.after (hostOps2 (F := Ideal)) X (Proc.devRef .tc main_v82)
      = Cert.GcnSpec.agg (F := Ideal) (X (Proc.devRef .tc main_v42)) (X (Proc.devRef .tc main_arg1)) := by
  after_results_simp
  simp only [record1_eq, record2_eq, record3_eq, record4_eq]
  unfold Cert.GcnSpec.agg Cert.GcnSpec.norm Cert.GcnSpec.invSqrtDeg Cert.GcnSpec.col Cert.GcnSpec.wrap Cert.GcnSpec.src Cert.GcnSpec.dst
  rfl

end Cert.KernelIdeal.HostValue

end
-- ==== Proof.KI.MeanFinal.lean ====
/-
  The column-mean region's result, and its input blocks as rows of the arrays it reads.

  The region walks the 100000 rows in twenty blocks of 5000, carrying a [1,128] row of sums in its
  scratch, and stores into its output only at the last of the twenty points; the output window's one
  block, at offsets (0, 0) and of the array's own size, is the whole [1,128] array, and it is written
  back once, after that last point. So the array the region leaves is what the last point stored.
  Input window 0's block at point t is rows 5000 t … 5000 t + 4999 of the aggregated features; input
  window 1's block is, at every point, the whole [1,128] bias row.
-/
import proofs.«153876_j4595615007018_1_alg».proof.Proof.KI.MeanBody
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- The last of the twenty points. -/
theorem last_lt : 19 < cfg2.N := by rw [N2_eq]; decide

/-- What the last point stores into the output block, as the contents of the output array's buffer. -/
abbrev meanOut (c : Dev nD) : Buf (Elt F) ((c : Thread nD τ).loc main_v84) :=
  (outsAt2 V c 19 last_lt).1

/-- The one write-back, after the last point, writes what that point stored: the block at offsets (0, 0), of
    the array's own size, read through zero offsets is the array. -/
theorem mean_flushed (c : Dev nD) (t : Fin cfg2.N) (hf : (cfg2.win 2).flush t = true) :
    (dat2 V c).flushed 2 t = ((cfg2.win 2).blk t).view.read (Elt F) (meanOut V c) := by
  have hN : cfg2.N = 20 := N2_eq
  have h1 : t.val = 19 := by have := (flush2_2 t).mp hf; have := t.isLt; omega
  obtain rfl : t = ⟨19, last_lt⟩ := Fin.ext h1
  show (cfg2.win 2).cut (grid2.coords ⟨19, last_lt⟩) ((dat2 V c).after 2 ⟨19, last_lt⟩) = _
  rw [after2_2]
  have hz' : (fun a => win2_2.index ⟨19, last_lt⟩ a * main_v84.ty.shape.size a) = fun _ => 0 :=
    funext fun a => by fin_cases a <;> decide
  exact (Memref.read_access_unit_zero (Elt F) main_v84 hz' (fun a => by rw [congrFun hz' a]; simp) (meanOut V c)).symm

/-- So the output array ends holding what the last point stored: that point's block covers the array. -/
theorem mean_final (c : Dev nD) : (dat2 V c).arrAt 2 cfg2.N = meanOut V c :=
  (dat2 V c).arrAt_eq_of_cover 2 (meanOut V c) (mean_flushed V c) fun i =>
    ⟨⟨19, last_lt⟩, (flush2_2 ⟨19, last_lt⟩).mpr rfl, by
      show i ∈ ((View.whole main_v84).slice (win2_2.rect ⟨19, last_lt⟩)).set
      rw [View.set_slice_whole, Rect.mem_set_unit]
      intro a
      have h0 : (i 0 : Nat) < 1 := (i 0).isLt
      have h1 : (i 1 : Nat) < 128 := (i 1).isLt
      match a with
      | ⟨0, _⟩ => show win2_2.index ⟨19, last_lt⟩ 0 * win2_2.size 0 ≤ (i 0 : Nat) ∧ (i 0 : Nat) < win2_2.index ⟨19, last_lt⟩ 0 * win2_2.size 0 + win2_2.xsize (grid2.coords ⟨19, last_lt⟩) 0
                  rw [show win2_2.index ⟨19, last_lt⟩ 0 * win2_2.size 0 = 0 from by decide +kernel, show win2_2.xsize (grid2.coords ⟨19, last_lt⟩) 0 = 1 from by decide +kernel]; omega
      | ⟨1, _⟩ => show win2_2.index ⟨19, last_lt⟩ 1 * win2_2.size 1 ≤ (i 1 : Nat) ∧ (i 1 : Nat) < win2_2.index ⟨19, last_lt⟩ 1 * win2_2.size 1 + win2_2.xsize (grid2.coords ⟨19, last_lt⟩) 1
                  rw [show win2_2.index ⟨19, last_lt⟩ 1 * win2_2.size 1 = 0 from by decide +kernel, show win2_2.xsize (grid2.coords ⟨19, last_lt⟩) 1 = 128 from by decide +kernel]; omega⟩

/-- Input window 0's block at point t is rows 5000 t … 5000 t + 4999 of the aggregated features. -/
theorem mean_block_rows (c : Dev nD) (t : Fin cfg2.N) (x : S5000x128.Idx) (k : S100000x128.Idx)
    (hk0 : (k 0).val = 5000 * t.val + (x 0).val) (hk1 : (k 1).val = (x 1).val) :
    (iblk2 V c 0 t : Vec F S5000x128 .f32) x = (V c main_v82 : S100000x128.Idx → Elt F .f32) k := by
  have hi : win2_0.index t 0 = t.val ∧ win2_0.index t 1 = 0 :=
    (by decide +kernel : ∀ t : Fin grid2.N, win2_0.index t 0 = t.val ∧ win2_0.index t 1 = 0) t
  unfold iblk2
  rw [View.read_apply]
  show V c main_v82 _ = V c main_v82 _
  congr 1
  funext a
  apply Fin.ext
  match a with
  | ⟨0, _⟩ => show win2_0.index t 0 * 5000 + 1 * (x 0).val = (k 0).val; rw [hi.1, hk0]; omega
  | ⟨1, _⟩ => show win2_0.index t 1 * 128 + 1 * (x 1).val = (k 1).val; rw [hi.2, hk1]; omega

/-- Input window 1's block is, at every point, the whole bias row. -/
theorem mean_block_bias (c : Dev nD) (t : Fin cfg2.N) (x : S1x128.Idx) :
    (iblk2 V c 1 t : Vec F S1x128 .f32) x = (V c main_v83 : S1x128.Idx → Elt F .f32) x := by
  have hi : win2_1.index t 0 = 0 ∧ win2_1.index t 1 = 0 :=
    (by decide +kernel : ∀ t : Fin grid2.N, win2_1.index t 0 = 0 ∧ win2_1.index t 1 = 0) t
  unfold iblk2
  rw [View.read_apply]
  show V c main_v83 _ = V c main_v83 _
  congr 1
  funext a
  apply Fin.ext
  match a with
  | ⟨0, _⟩ => show win2_1.index t 0 * 1 + 1 * (x 0).val = (x 0).val; rw [hi.1]; omega
  | ⟨1, _⟩ => show win2_1.index t 1 * 128 + 1 * (x 1).val = (x 1).val; rw [hi.2]; omega

end Cert.KernelIdeal.Body

end
-- ==== Proof.KI.MeanScale.lean ====
/-
  The last step of the mean, on one extended real.

  The kernel multiplies the column sum by the constant it names 1/100000; the reference divides it
  by the float word of 100000. The named constant is the rational 1/100000, the word is the real
  100000, and on every extended real (the infinities included) the quotient by a nonzero real is
  the product with its reciprocal: the two steps are one function.
-/
import proofs.«153876_j4595615007018_1_alg».proof.KernelIdeal
import Idealize.ShloMosaic.PureOps.Ideal
import Idealize.ShloMosaic.PureOps.IdealRules

noncomputable section

namespace Cert.GcnSpec

open Idealize.ShloMosaic

/-- The float word of 100000 denotes the real 100000. -/
theorem ofBits_100000 : Ideal.ofBits .f32 0x47C35000#32 = ((100000 : ℝ) : EReal) := by
  simp [Ideal.ofBits, Ideal.ieee, -EReal.coe_mul]; norm_num

/-- The kernel's named reciprocal denotes the rational 1/100000. -/
theorem inv_100000 :
    Named.named (F := Ideal) Cert.KernelIdeal.κ "inv_100000" (φ := .f32) 0x3727C5AC#32 = ((1 / 100000 : ℝ) : EReal) :=
  IdealRules.named_const.ideal_named_scalar _ _ _ _ rfl

/-- Multiplying by the named 1/100000 is dividing by the word of 100000. -/
theorem mul_inv_eq_div (x : EReal) :
    x * Named.named (F := Ideal) Cert.KernelIdeal.κ "inv_100000" (φ := .f32) 0x3727C5AC#32
      = Ideal.div x (Ideal.ofBits .f32 0x47C35000#32) := by
  rw [inv_100000, ofBits_100000, Ideal.div_coe (by norm_num : (100000 : ℝ) ≠ 0)]

end Cert.GcnSpec

end
-- ==== Proof.KI.KernelValue.lean ====
/-
  The kernel program's result is the specification of the six argument arrays.

  The program's buffers are followed from the launch to the return: the first region leaves the
  product x . W1; the first stretch of host operations aggregates it and lays the first bias row
  out as [1,128]; the second region adds the bias, keeps the positive part and multiplies by W2;
  the second stretch aggregates that product and lays the second bias row out; the third region
  adds the bias, sums the 100000 rows and multiplies by the named 1/100000; the last operation
  hands the [1,128] result over as a row of 128. At every step the aggregation is the one function
  "agg", carried whole: only its arguments are rewritten.
-/
import proofs.«153876_j4595615007018_1_alg».proof.Proof.KI.RunArgs
import proofs.«153876_j4595615007018_1_alg».proof.Proof.KI.ProjectValue
import proofs.«153876_j4595615007018_1_alg».proof.Proof.KI.HostStretches
import proofs.«153876_j4595615007018_1_alg».proof.Proof.KI.MeanFinal
import proofs.«153876_j4595615007018_1_alg».proof.Proof.KI.MeanScale
import proofs.«153876_j4595615007018_1_alg».proof.Proof.GcnSpec

noncomputable section

namespace Cert.KernelIdeal.Body

open Cert.KernelIdeal Cert.KernelIdeal.Gen Cert.KernelIdeal.HostValue
open Idealize.ShloMosaic Idealize.ShloMosaic.TcCoe Idealize.SL.Sem
open Idealize.ShloMosaic.ValueIdx (ix1 ix2 eq_ix1)
open Cert.GcnSpec (spec layer1 matmul agg)

/-- Rows plus a [1,128] bias row, the positive part kept, against the columns of a weight matrix. -/
def reluProduct (a : S100000x128.Idx → EReal) (b : S1x128.Idx → EReal) (w : S128x128.Idx → EReal) : S100000x128.Idx → EReal :=
  fun i => ∑ k : Fin 128, max (a (ix2 (i 0) k) + b (ix2 (0 : Fin 1) k)) 0 * w (ix2 k (i 1))

/-- Column q of rows plus a [1,128] bias row, summed over the rows. -/
def columnSum (a : S100000x128.Idx → EReal) (b : S1x128.Idx → EReal) (q : Fin 128) : EReal :=
  ∑ n : Fin 100000, (a (ix2 n q) + b (ix2 (0 : Fin 1) q))

/-- Rows against columns is the specification's matrix product. -/
theorem rowsByCols_eq (a : S100000x128.Idx → EReal) (w : S128x128.Idx → EReal) : rowsByCols a w = matmul a w := rfl

/-- With the bias row and the aggregated rows known, the second region's product is the specification's. -/
theorem reluProduct_eq (a : S100000x128.Idx → EReal) (b : S1x128.Idx → EReal) (w : S128x128.Idx → EReal)
    (x : Cert.GcnSpec.Feat Ideal) (e : Cert.GcnSpec.Edges Ideal) (W1 : Cert.GcnSpec.Weights Ideal) (b1 : Cert.GcnSpec.Row Ideal)
    (ha : a = agg (F := Ideal) (matmul x W1) e) (hb : ∀ k : Fin 128, b (ix2 (0 : Fin 1) k) = b1 (ix1 k)) :
    reluProduct a b w = matmul (layer1 x e W1 b1) w := by
  subst ha
  funext i
  unfold reluProduct Cert.GcnSpec.matmul
  refine Finset.sum_congr rfl fun k _ => ?_
  rw [hb k]
  rfl

variable (m : (ℓ : Loc nD τ sig) → Buf (Elt Ideal) ℓ) (c : Dev nD)

/-- After the first region: x . W1. -/
theorem value_v0 :
    W1 m c (Proc.devRef .tc main_v0) = matmul (m ((c.tc : Thread nD τ).loc main_arg0)) (m ((c.tc : Thread nD τ).loc main_arg2)) :=
  ((W1_arr m c 2).trans (arr0_eq (Vof (W0 m)) c)).trans (rowsByCols_eq _ _)

/-- After the first stretch: the aggregation of x . W1. -/
theorem value_v40 :
    W2 m c (Proc.devRef .tc main_v40)
      = agg (F := Ideal) (matmul (m ((c.tc : Thread nD τ).loc main_arg0)) (m ((c.tc : Thread nD τ).loc main_arg2))) (m ((c.tc : Thread nD τ).loc main_arg1)) := by
  show StableHlo.after hostOps1 (W1 m c) (Proc.devRef .tc main_v40) = _
  rw [stretch1_agg (W1 m c), value_v0 m c, W1_main_arg1 m c]

/-- After the first stretch: the first bias row, laid out as [1,128]. -/
theorem value_v41 (k : Fin 128) :
    W2 m c (Proc.devRef .tc main_v41) (ix2 (0 : Fin 1) k) = m ((c.tc : Thread nD τ).loc main_arg3) (ix1 k) :=
  (stretch1_bias (W1 m c) k).trans (congrFun (W1_main_arg3 m c) (ix1 k))

/-- After the second region: layer1 . W2. -/
theorem value_v42
    (h1 : (dat1 (F := Ideal) (Vof (W2 m)) c).arrAt 3 cfg1.N
      = reluProduct (W2 m c (Proc.devRef .tc main_v40)) (W2 m c (Proc.devRef .tc main_v41)) (W2 m c (Proc.devRef .tc main_arg4))) :
    W3 m c (Proc.devRef .tc main_v42)
      = matmul (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  refine ((W3_arr m c 3).trans h1).trans ?_
  rw [W2_main_arg4 m c]
  exact reluProduct_eq _ _ _ _ _ _ _ (value_v40 m c) (value_v41 m c)

/-- After the second stretch: the aggregation of layer1 . W2. -/
theorem value_v82
    (h1 : (dat1 (F := Ideal) (Vof (W2 m)) c).arrAt 3 cfg1.N
      = reluProduct (W2 m c (Proc.devRef .tc main_v40)) (W2 m c (Proc.devRef .tc main_v41)) (W2 m c (Proc.devRef .tc main_arg4))) :
    W4 m c (Proc.devRef .tc main_v82)
      = agg (F := Ideal) (matmul (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1)) := by
  show StableHlo.after hostOps2 (W3 m c) (Proc.devRef .tc main_v82) = _
  rw [stretch2_agg (W3 m c), value_v42 m c h1, W3_main_arg1 m c]

/-- After the second stretch: the second bias row, laid out as [1,128]. -/
theorem value_v83 (k : Fin 128) :
    W4 m c (Proc.devRef .tc main_v83) (ix2 (0 : Fin 1) k) = m ((c.tc : Thread nD τ).loc main_arg5) (ix1 k) :=
  (stretch2_bias (W3 m c) k).trans (congrFun (W3_main_arg5 m c) (ix1 k))

/-- The column sums of the third region, in the specification's terms. -/
theorem columnSum_eq (a : S100000x128.Idx → EReal) (b : S1x128.Idx → EReal) (q : Fin 128)
    (h : Cert.GcnSpec.Feat Ideal) (e : Cert.GcnSpec.Edges Ideal) (b2 : Cert.GcnSpec.Row Ideal)
    (ha : a = agg (F := Ideal) h e) (hb : b (ix2 (0 : Fin 1) q) = b2 (ix1 q)) :
    columnSum a b q = ∑ n : Fin 100000, (agg (F := Ideal) h e (ix2 n q) + b2 (ix1 q)) := by
  subst ha
  unfold columnSum
  rw [hb]

/-- The result, given what the second and third regions leave. -/
theorem result_is_spec_of
    (h1 : (dat1 (F := Ideal) (Vof (W2 m)) c).arrAt 3 cfg1.N
      = reluProduct (W2 m c (Proc.devRef .tc main_v40)) (W2 m c (Proc.devRef .tc main_v41)) (W2 m c (Proc.devRef .tc main_arg4)))
    (h2 : ∀ q : Fin 128, (outsAt2 (Vof (W4 (F := Ideal) m)) c 19 last_lt).1 (ix2 (0 : Fin 1) q)
      = columnSum (W4 m c (Proc.devRef .tc main_v82)) (W4 m c (Proc.devRef .tc main_v83)) q
          * Named.named (F := Ideal) κ "inv_100000" (φ := .f32) 0x3727C5AC#32) :
    W6 (F := Ideal) m c (Proc.devRef .tc main_v85)
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext j
  obtain ⟨q, rfl⟩ : ∃ q : Fin 128, j = ix1 q := ⟨j 0, eq_ix1 j⟩
  show StableHlo.after hostOps3 (W5 m c) (Proc.devRef .tc main_v85) (ix1 q) = _
  rw [stretch3 (W5 m c) q]
  have e84 : W5 m c (Proc.devRef .tc main_v84) = meanOut (Vof (W4 m)) c := (W5_arr m c 2).trans (mean_final (Vof (W4 m)) c)
  rw [e84]
  show (outsAt2 (Vof (W4 m)) c 19 last_lt).1 (ix2 (0 : Fin 1) q) = _
  rw [h2 q, Cert.GcnSpec.mul_inv_eq_div,
    columnSum_eq _ _ q _ _ (m ((c.tc : Thread nD τ).loc main_arg5)) (value_v82 m c h1) (value_v83 m c q)]
  rfl

end Cert.KernelIdeal.Body

end
-- ==== Proof.KI.ReluProjectValue.lean ====
/-
  The second projection kernel (region 1): the value of its output array.

  Every grid point stores, into its own block of 5000 rows, the matrix product of (its block of rows of the aggregated
  features, plus the bias row added to every row, the negative entries replaced by zero) and the whole 128×128 weight
  matrix. At the exact extended reals the casts to the same shape and the narrowing of both factors are the identity,
  the broadcast of the one-row bias reads that row, the constant compared against is 0 and the accumulator is zero, so
  entry (p, q) of the block is the sum over e of max (h(p, e) + b(0, e)) 0 * w(e, q). The twenty blocks tile the rows, so
  the output array ends as
    result (n, q) = sum over k < 128 of max (h (n, k) + b (0, k)) 0 * w (k, q).

  Here: the body's found piece is its one store's payload; the payload read at an entry; the three input blocks read
  at an entry; what a point writes back; the cover of the rows by the blocks; the array.
-/
import proofs.«153876_j4595615007018_1_alg».proof.Proof.KI.ReluProjectBody
import proofs.«153876_j4595615007018_1_alg».proof.Proof.LibMatmulNN
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe
open Idealize.ShloMosaic.ValueIdx
open Idealize.ShloMosaic.Pipeline (Dat Cfg Window)

section Generic
variable {F : FTy → Type} [FloatOps F] [Named F]

/-- The zero offsets, as a constant function. -/
private theorem hz2 : (![0, 0] : Fin 2 → Nat) = fun _ => 0 := funext fun a => by fin_cases a <;> rfl

/-- The pieces the body's run finds, read back, are its one store's payload of the three blocks it loaded. -/
theorem out1_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) :
    out1 c i arg1 harg1 arg2 harg2 arg3 harg3 arg4 harg4 x0 x1 x2 = k1_pay1 x0 x1 x2 := by
  unfold out1
  rw [View.read_writes_eq_canon _ _ _ (cover1 c i arg1 harg1 arg2 harg2 arg3 harg3 arg4 harg4 x0 x1 x2)]
  unfold kernelRun1
  dsimp only
  rw [View.canon_unit_zero hz2]
  simp only [View.readAt_eq_ld, harg1.read_unread, harg2.read_unread, harg3.read_unread, View.ld_unit_zero (S := S5000x128) hz2, View.ld_unit_zero (S := S128x128) hz2, View.ld_unit_zero (S := S1x128) hz2]

/-- So point `t` leaves in the output's buffer the payload of its three input blocks. -/
theorem outAt1_eq (V : (c : Dev nD) → (b : Ref sig .tc) → Buf (Elt F) ((c : Thread nD τ).loc b)) (c : Dev nD) (t : Fin cfg1.N) :
    outAt1 V c t = k1_pay1 (iblk1 V c 0 t) (iblk1 V c 1 t) (iblk1 V c 2 t) := by
  unfold outAt1
  exact out1_eq c _ _ _ _ _ _ _ _ _ _ _ _

end Generic

/-- The payload at entry `(p, q)`: row `p` of the first block plus the bias row, its positive part, against column `q`
    of the weight block. -/
theorem k1_pay1_apply (x0 : Vec Ideal S5000x128 .f32) (x1 : Vec Ideal S1x128 .f32) (x2 : Vec Ideal S128x128 .f32) (p : Fin 5000) (q : Fin 128) :
    k1_pay1 (F := Ideal) x0 x1 x2 (ix2 p q) = ∑ e : Fin 128, max (x0 (ix2 p e) + x1 (ix2 (0 : Fin 1) e)) 0 * x2 (ix2 e q) := by
  unfold k1_pay1
  refine (LibMatmulNN.matmul_zero_apply (M := 5000) (N := 128) (K := 128) dot_S5000x128_S128x128_S5000x128_1_0_0_1_n_n_wf none _ _ p q).trans ?_
  refine Finset.sum_congr rfl fun e _ => ?_
  show max (shapeCast S5000x128 x0 shapeCasts_S5000x128_S5000x128 (ix2 p e)
      + broadcastTo S5000x128 (shapeCast S1x128 x1 shapeCasts_S1x128_S1x128) broadcasts_S1x128_S5000x128 (ix2 p e))
      (Ideal.ofBits .f32 0x00000000#32) * x2 (ix2 e q) = _
  rw [shapeCast_self, shapeCast_self, broadcastTo_1b_ab_apply, Ideal.ofBits_zero_f32]

/-! ## From the blocks to the array -/

section Array
variable (V : (c : Dev nD) → (b : Ref sig .tc) → Buf (Elt Ideal) ((c : Thread nD τ).loc b))

/-- Add the bias row to every row, keep the positive part, then rows against columns. -/
def reluRowsByCols (a : S100000x128.Idx → EReal) (b : S1x128.Idx → EReal) (w : S128x128.Idx → EReal) : S100000x128.Idx → EReal :=
  fun i => ∑ k : Fin 128, max (a (ix2 (i 0) k) + b (ix2 (0 : Fin 1) k)) 0 * w (ix2 k (i 1))

theorem reluRowsByCols_def (a : S100000x128.Idx → EReal) (b : S1x128.Idx → EReal) (w : S128x128.Idx → EReal) :
    reluRowsByCols a b w = fun i => ∑ k : Fin 128, max (a (ix2 (i 0) k) + b (ix2 (0 : Fin 1) k)) 0 * w (ix2 k (i 1)) := rfl

/-- The payload at an entry of the block, when the three blocks are known where the entry reads them. -/
theorem k1_pay1_at (x0 : Vec Ideal S5000x128 .f32) (x1 : Vec Ideal S1x128 .f32) (x2 : Vec Ideal S128x128 .f32)
    (a : S100000x128.Idx → EReal) (b : S1x128.Idx → EReal) (w : S128x128.Idx → EReal) (y : S5000x128.Idx) (i : S100000x128.Idx)
    (h0 : ∀ e : Fin 128, x0 (ix2 (y 0) e) = a (ix2 (i 0) e)) (h1 : ∀ e : Fin 128, x1 (ix2 (0 : Fin 1) e) = b (ix2 (0 : Fin 1) e))
    (h2 : ∀ e : Fin 128, x2 (ix2 e (y 1)) = w (ix2 e (i 1))) :
    k1_pay1 (F := Ideal) x0 x1 x2 y = reluRowsByCols a b w i := by
  obtain ⟨p, q, rfl⟩ : ∃ (p : Fin 5000) (q : Fin 128), y = ix2 p q := ⟨y 0, y 1, eq_ix2 y⟩
  refine (k1_pay1_apply x0 x1 x2 p q).trans ?_
  unfold reluRowsByCols
  exact Finset.sum_congr rfl fun e _ => by rw [h0 e, h1 e, h2 e]

/-- The printed index maps, decided over the grid: point `t` reads row block `t` of the features, the whole bias row
    and the whole weight matrix, and writes row block `t` of the result. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of that function of the three arrays as the region finds them. -/
theorem flushed1_eq (c : Dev nD) (t : Fin cfg1.N) :
    (dat1 (F := Ideal) V c).flushed 3 t = ((cfg1.win 3).blk t).view.read (Elt Ideal) (reluRowsByCols (V c main_v40) (V c main_v41) (V c main_arg4)) := by
  show (cfg1.win 3).cut (grid1.coords t) ((dat1 V c).after 3 t) = _
  rw [after1_3, outAt1_eq]
  obtain ⟨e0, e1, e2, e3, e4, e5, e6, e7⟩ := idx_facts1 t
  funext j
  rw [View.read_apply]
  show k1_pay1 (F := Ideal) (iblk1 V c 0 t) (iblk1 V c 1 t) (iblk1 V c 2 t) j = reluRowsByCols (V c main_v40) (V c main_v41) (V c main_arg4) (((cfg1.win 3).blk t).view.emb j)
  refine k1_pay1_at (iblk1 V c 0 t) (iblk1 V c 1 t) (iblk1 V c 2 t) (V c main_v40) (V c main_v41) (V c main_arg4) j (((cfg1.win 3).blk t).view.emb j) (fun e => ?_) (fun e => ?_) (fun e => ?_)
  · unfold iblk1
    rw [View.read_apply]
    show V c main_v40 (((cfg1.win 0).blk t).view.emb (ix2 (j 0) e)) = V c main_v40 (ix2 ((((cfg1.win 3).blk t).view.emb j) 0) e)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * e.val = e.val; omega
  · unfold iblk1
    rw [View.read_apply]
    show V c main_v41 (((cfg1.win 1).blk t).view.emb (ix2 (0 : Fin 1) e)) = V c main_v41 (ix2 (0 : Fin 1) e)
    refine congrArg _ (funext fun a => Fin.ext ?_)
    match a with
    | ⟨0, _⟩ => show win1_1.index t (0 : Fin 2) * 1 + 1 * (0 : Fin 1).val = (0 : Fin 1).val; omega
    | ⟨1, _⟩ => show win1_1.index t (1 : Fin 2) * 128 + 1 * e.val = e.val; omega
  · unfold iblk1
    rw [View.read_apply]
    show V c main_arg4 (((cfg1.win 2).blk t).view.emb (ix2 e (j 1))) = V c main_arg4 (ix2 e ((((cfg1.win 3).blk t).view.emb j) 1))
    refine congrArg _ (funext fun a => Fin.ext ?_)
    match a with
    | ⟨0, _⟩ => show win1_2.index t (0 : Fin 2) * 128 + 1 * e.val = e.val; omega
    | ⟨1, _⟩ => show win1_2.index t (1 : Fin 2) * 128 + 1 * (j 1).val = win1_3.index t (1 : Fin 2) * 128 + 1 * (j 1).val; omega

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v42).slice (win1_3.rect t)).set ↔ _
  rw [View.set_slice_whole, Rect.mem_set_unit]
  exact Iff.rfl

/-- Every row is in some point's block: row `r` in that of point `r / 5000`. -/
theorem cover_arr1 (i : S100000x128.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, e6, e7⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY after the region: bias, positive part and product of the three arrays as the region finds them. -/
theorem arr1_eq (c : Dev nD) :
    (dat1 (F := Ideal) V c).arrAt 3 cfg1.N = reluRowsByCols (V c main_v40) (V c main_v41) (V c main_arg4) :=
  (dat1 (F := Ideal) V c).arrAt_eq_of_cover 3 (reluRowsByCols (V c main_v40) (V c main_v41) (V c main_arg4)) (fun t _ => flushed1_eq V c t) cover_arr1

end Array

end Cert.KernelIdeal.Body

end
-- ==== Proof.KI.MeanPieces.lean ====
/-
  The column-mean kernel: what each case's run left, as the body's own arithmetic.

  The run finds, per case, the list of whole-buffer stores each buffer ends with. Read back: after the first point the scratch
  is the accumulation step applied to the zero row; after a later point it is the step applied to what the point before
  left; and the last point's output is the scaling of that point's scratch.
-/
import proofs.«153876_j4595615007018_1_alg».proof.Proof.KI.MeanBody
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

/-- After the first point: the step over the zero row. -/
theorem soutA_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S5000x128 .f32) (x1 : Vec F S1x128 .f32) :
    sout2_A c i arg1 harg1 arg2 harg2 arg3 harg3 arg4 harg4 hc0 hc1 x0 x1 = k2_pay2 (k2_pay1 (F := F)) x0 x1 := by
  unfold sout2_A
  rw [View.read_writes_eq_canon _ _ _ (scover2_A c i arg1 harg1 arg2 harg2 arg3 harg3 arg4 harg4 hc0 hc1 x0 x1)]
  unfold kernelRun2_A
  dsimp only
  try sl_unfold_words
  rw [View.canon_cons_unit_zero (S := S1x128) hz2, View.readCov_unit_zero (S := S1x128) _ hz2]
  simp only [View.readAt_eq_ld, harg1.read_unread, harg2.read_unread, View.ld_unit_zero (S := S5000x128) hz2, View.ld_unit_zero (S := S1x128) hz2]

/-- After a middle point: the step over what the point before left. -/
theorem soutB_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S5000x128 .f32) (x1 : Vec F S1x128 .f32) (xs : Vec F S1x128 .f32) :
    sout2_B c i arg1 harg1 arg2 harg2 arg3 harg3 arg4 harg4 hc0 hc1 x0 x1 xs = k2_pay2 xs x0 x1 := by
  unfold sout2_B
  rw [View.read_writes_eq_canon _ _ _ (scover2_B c i arg1 harg1 arg2 harg2 arg3 harg3 arg4 harg4 hc0 hc1 x0 x1 xs)]
  unfold kernelRun2_B
  dsimp only
  try sl_unfold_words
  rw [View.canon_unit_zero (S := S1x128) hz2]
  simp only [View.readAt_eq_ld, harg1.read_unread, harg2.read_unread, harg4.read_unread, View.ld_unit_zero (S := S5000x128) hz2, View.ld_unit_zero (S := S1x128) hz2]

/-- After the last point the scratch is the same step, -/
theorem soutC_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) :
    sout2_C c i arg1 harg1 arg2 harg2 arg3 harg3 arg4 harg4 hc0 hc1 x0 x1 xs = k2_pay2 xs x0 x1 := by
  unfold sout2_C
  rw [View.read_writes_eq_canon _ _ _ (scover2_C c i arg1 harg1 arg2 harg2 arg3 harg3 arg4 harg4 hc0 hc1 x0 x1 xs)]
  unfold kernelRun2_C
  dsimp only
  try sl_unfold_words
  rw [View.canon_unit_zero (S := S1x128) hz2]
  simp only [View.readAt_eq_ld, harg1.read_unread, harg2.read_unread, harg4.read_unread, View.ld_unit_zero (S := S5000x128) hz2, View.ld_unit_zero (S := S1x128) hz2]

/-- and the output is that scratch scaled. -/
theorem outC_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S5000x128 .f32) (x1 : Vec F S1x128 .f32) (xs : Vec F S1x128 .f32) :
    out2_C c i arg1 harg1 arg2 harg2 arg3 harg3 arg4 harg4 hc0 hc1 x0 x1 xs = k2_pay3 (k2_pay2 xs x0 x1) := by
  unfold out2_C
  rw [View.read_writes_eq_canon _ _ _ (cover2_C c i arg1 harg1 arg2 harg2 arg3 harg3 arg4 harg4 hc0 hc1 x0 x1 xs)]
  unfold kernelRun2_C
  dsimp only
  try sl_unfold_words
  rw [View.canon_unit_zero (S := S1x128) hz2, View.readCov_unit_zero (S := S1x128) _ hz2]
  simp only [View.readAt_eq_ld, harg1.read_unread, harg2.read_unread, harg4.read_unread, View.ld_unit_zero (S := S5000x128) hz2, View.ld_unit_zero (S := S1x128) hz2]

end Cert.KernelIdeal.Body

end
-- ==== Proof.LibColumnSum.lean ====
/-
  The column sums of a matrix, read at an index at the exact extended reals: a general lemma.

  A sum-reduction of an `[a, b]` array over its row axis (axis 0) leaves a vector `[b]`; its entry `q` is the sum over
  the rows `k` of the array at `(k, q)`.
-/
import Idealize.ShloMosaic.PureOps.Ideal
import Idealize.ShloMosaic.PureOps.Ideal.Laws
import Idealize.ShloMosaic.Lib.ValueIdx

noncomputable section

namespace Cert.LibColumnSum

open Idealize.ShloMosaic Idealize.ShloMosaic.ValueIdx

variable {a b : ℕ}

/-- The index of the matrix over entry `q` of the reduced vector, with row coordinate `k` put back, is `(k, q)`. -/
theorem lift_eq (h : (⟨2, ![a, b]⟩ : Shape).Reduces [0] (⟨1, ![b]⟩ : Shape)) (q : Fin b) (k : Fin a) :
    h.lift (ix1 q) k = ix2 k q := by
  funext c
  apply Fin.ext
  refine (h.lift_val (ix1 q) k c).trans ?_
  unfold Shape.Reduces.liftVal
  match c with
  | ⟨0, _⟩ => rfl
  | ⟨1, _⟩ => rfl

/-- Entry `q` of the column sums is the sum over the rows of column `q`. -/
theorem colSum_apply {φ : FTy} (src : FVec Ideal (⟨2, ![a, b]⟩ : Shape) φ) (acc : BitVec φ.bits)
    (h : (⟨2, ![a, b]⟩ : Shape).Reduces [0] (⟨1, ![b]⟩ : Shape)) (hφ : FKind.Formats φ) (hacc : acc = FKind.add.neutral φ hφ)
    (q : Fin b) :
    multiReduction .add [0] (⟨1, ![b]⟩ : Shape) src acc h hφ hacc (ix1 q) = ∑ k : Fin a, src (ix2 k q) := by
  refine (Ideal.multiReduction_add_single src acc h hφ hacc (ix1 q)).trans ?_
  exact Finset.sum_congr rfl fun k _ => congrArg src (lift_eq h q k)

end Cert.LibColumnSum

end
-- ==== Proof.KI.MeanPayload.lean ====
/-
  The column-mean kernel's three stored values, read at an index at the ideal values.

  The running row lives in a [1,128] buffer. The first point stores the zero row; every point stores
  (old row) + (column sums of its [5000,128] block with the bias row added to every row); the last point stores the row
  times the reciprocal of the node count. At column q these are 0, old(q) + Σ_r (block(r,q) + bias(q)), and row(q) · κ.
-/
import proofs.«153876_j4595615007018_1_alg».proof.Proof.Gen.KernelIdeal.Skeleton
import proofs.«153876_j4595615007018_1_alg».proof.Proof.LibColumnSum
import Idealize.ShloMosaic.Lib.ValueIdx
import Idealize.ShloMosaic.Lib.Pipeline.Value
import Idealize.ShloMosaic.PureOps.Ideal.Laws

noncomputable section

namespace Cert.KernelIdeal.MeanPayload

open Cert.KernelIdeal Cert.KernelIdeal.Gen
open Idealize.ShloMosaic Idealize.ShloMosaic.ValueIdx

/-- The first point's stored row is zero everywhere. -/
theorem pay1_apply (j : S1x128.Idx) : k2_pay1 (F := Ideal) j = 0 := by
  unfold k2_pay1
  simp only [shapeCast_self]
  show Ideal.ofBits .f32 0x00000000#32 = 0
  exact Ideal.ofBits_zero_f32

/-- The [128] vector of column sums made a [1,128] row reads at (0, q) the vector at q. -/
theorem row_of_vector (v : FVec Ideal S128 .f32) (h : S128.ShapeCasts S1x128) (q : Fin 128) :
    shapeCast S1x128 v h (ix2 (0 : Fin 1) q) = v (ix1 q) := by
  refine (shapeCast_addUnit_apply ![128] v h (ix2 (0 : Fin 1) q)).trans (congrArg v ?_)
  funext a
  match a with
  | ⟨0, _⟩ => rfl

/-- The bias row broadcast over 5000 rows reads at (r, q) the row at (0, q). -/
theorem rows_of_row (x : FVec Ideal S1x128 .f32) (h : S1x128.Broadcasts S5000x128) (r : Fin 5000) (q : Fin 128) :
    broadcastTo S5000x128 x h (ix2 r q) = x (ix2 (0 : Fin 1) q) :=
  broadcastTo_apply x h (ix2 r q) (ix2 (0 : Fin 1) q) fun a => by
    match a with
    | ⟨0, _⟩ => rfl
    | ⟨1, _⟩ => rfl

/-- A point's stored row at column q: the old row there plus the column sum of (block + bias row). -/
theorem pay2_apply (xs : Vec Ideal S1x128 .f32) (x0 : Vec Ideal S5000x128 .f32) (x1 : Vec Ideal S1x128 .f32) (q : Fin 128) :
    k2_pay2 xs x0 x1 (ix2 (0 : Fin 1) q)
      = xs (ix2 (0 : Fin 1) q) + ∑ r : Fin 5000, (x0 (ix2 r q) + x1 (ix2 (0 : Fin 1) q)) := by
  unfold k2_pay2
  simp only [shapeCast_self]
  rw [addf_apply, row_of_vector]
  congr 1
  refine (Cert.LibColumnSum.colSum_apply _ _ _ _ _ q).trans ?_
  refine Finset.sum_congr rfl fun r _ => ?_
  rw [addf_apply, rows_of_row]

/-- The last point's stored output at an index: the row there times the named reciprocal. -/
theorem pay3_apply (v : Vec Ideal S1x128 .f32) (j : S1x128.Idx) :
    k2_pay3 (F := Ideal) v j = v j * Named.named (F := Ideal) κ "inv_100000" (φ := .f32) 0x3727C5AC#32 := rfl

end Cert.KernelIdeal.MeanPayload

end
-- ==== Proof.LibBinCount.lean ====
/-
  Counting with 0/1 words.

  A comparison of two 32-bit integers yields one bit; widened to 32 bits and read as a signed integer it is
  0 or 1.  This file relates the two ways a histogram bin is counted:

    * summing the widened bits as 32-bit integers (wrapping addition) and converting the total to a real, and
    * converting each widened bit to a real and summing the reals.

  As long as there are fewer than 2^31 summands the integer total cannot wrap, so both give the number of
  set bits.  Also here: a finite sum of real numbers embedded in the extended reals is the embedded sum, and a
  sum over `Fin (a * b)` split into `a` consecutive runs of length `b`.
-/
import Idealize.ShloMosaic.PureOps.Ideal.Laws
import Idealize.ShloMosaic.PureOps.Reduce

noncomputable section

namespace Cert.BinCount

open Idealize.ShloMosaic

/-- "The 32-bit integer `v` equals `c`" as the extended real 0 or 1: the comparison bit, widened to 32 bits,
    read as a signed integer, as a real. -/
def ind (v c : BitVec 32) : EReal := ((((IntOp.cmpi .eq v c).setWidth 32).toInt : ℝ) : EReal)

/-- A finite sum of reals, embedded in the extended reals term by term, is the embedded sum. -/
theorem coe_sum {ι : Type} (s : Finset ι) (f : ι → ℝ) :
    (∑ p ∈ s, ((f p : ℝ) : EReal)) = (((∑ p ∈ s, f p) : ℝ) : EReal) := by
  classical
  induction s using Finset.induction_on with
  | empty => simp
  | insert a s ha ih => rw [Finset.sum_insert ha, Finset.sum_insert ha, ih, EReal.coe_add]

/-- One bit widened to 32 bits, read signed, is the bit's value. -/
theorem toInt_setWidth_bit (b : BitVec 1) : (b.setWidth 32).toInt = (b.toNat : ℤ) := by
  rcases BitVec.eq_zero_or_eq_one b with h | h <;> subst h <;> decide

/-- One bit widened to 32 bits is the 32-bit word of the bit's value. -/
theorem setWidth_bit_eq_ofNat (b : BitVec 1) : b.setWidth 32 = BitVec.ofNat 32 b.toNat := by
  rcases BitVec.eq_zero_or_eq_one b with h | h <;> subst h <;> decide

/-- The wrapping 32-bit sum of widened bits is the 32-bit word of the number of set bits. -/
theorem fold_addi_bits {ι : Type} [DecidableEq ι] (s : Finset ι) (e : ι → BitVec 1) :
    s.fold IntOp.addi 0#32 (fun p => (e p).setWidth 32) = BitVec.ofNat 32 (∑ p ∈ s, (e p).toNat) := by
  induction s using Finset.induction_on with
  | empty => simp
  | insert a s ha ih =>
    rw [Finset.fold_insert ha, ih, Finset.sum_insert ha, setWidth_bit_eq_ofNat]
    show BitVec.ofNat 32 _ + BitVec.ofNat 32 _ = _
    rw [← BitVec.ofNat_add]

/-- With fewer than 2^31 summands the integer total does not wrap: converted to a real it is the sum of the
    bits converted one by one. -/
theorem coe_toInt_fold_addi_bits {N : Nat} (hN : N < 2 ^ 31) (e : Fin N → BitVec 1) :
    (((((Finset.univ : Finset (Fin N)).fold IntOp.addi 0#32 (fun p => (e p).setWidth 32)).toInt : ℤ) : ℝ) : EReal)
      = ∑ p : Fin N, (((((e p).setWidth 32).toInt : ℤ) : ℝ) : EReal) := by
  rw [fold_addi_bits, coe_sum]
  have hle : (∑ p : Fin N, (e p).toNat) ≤ N := by
    calc (∑ p : Fin N, (e p).toNat) ≤ ∑ _p : Fin N, 1 :=
          Finset.sum_le_sum (fun p _ => by have := (e p).isLt; omega)
      _ = N := by simp
  have h1 : (BitVec.ofNat 32 (∑ p : Fin N, (e p).toNat)).toInt = ((∑ p : Fin N, (e p).toNat : ℕ) : ℤ) := by
    have hlt : (∑ p : Fin N, (e p).toNat) < 2 ^ 31 := lt_of_le_of_lt hle hN
    rw [BitVec.toInt_eq_toNat_of_lt (by rw [BitVec.toNat_ofNat, Nat.mod_eq_of_lt (by omega)]; omega),
      BitVec.toNat_ofNat, Nat.mod_eq_of_lt (by omega)]
  rw [h1]
  congr 1
  push_cast
  exact Finset.sum_congr rfl fun p _ => by rw [toInt_setWidth_bit]; push_cast; rfl

/-- A sum over `Fin (a * b)` as `a` consecutive runs of length `b`. -/
theorem sum_runs {M : Type} [AddCommMonoid M] (a b : Nat) (f : Fin (a * b) → M) :
    ∑ p : Fin (a * b), f p
      = ∑ u ∈ Finset.range a, ∑ q : Fin b,
          (if h : u * b + q.val < a * b then f ⟨u * b + q.val, h⟩ else 0) := by
  rw [← Fin.sum_univ_eq_sum_range (fun u => ∑ q : Fin b, (if h : u * b + q.val < a * b then f ⟨u * b + q.val, h⟩ else 0)) a]
  rw [← Fintype.sum_prod_type']
  refine (Fintype.sum_equiv finProdFinEquiv.symm _ _ fun p => ?_)
  have hb : 0 < b := by
    rcases Nat.eq_zero_or_pos b with h | h
    · subst h; exact absurd p.isLt (by simp)
    · exact h
  have e : (finProdFinEquiv.symm p).1.val * b + (finProdFinEquiv.symm p).2.val = p.val := by
    simp [finProdFinEquiv, Fin.divNat, Fin.modNat]
    rw [Nat.mul_comm]; exact Nat.div_add_mod p.val b
  rw [dif_pos (by rw [e]; exact p.isLt)]
  exact congrArg f (Fin.ext e.symm)

end Cert.BinCount

end
-- ==== Proof.KI.MeanValue.lean ====
/-
  The column-mean kernel's result at the ideal values.

  At column q the scratch after point n is the sum, over the points 0..n and the 5000 rows of each point's block, of
  (aggregated feature at that row, column q) + (bias at q): the first point starts from the zero row, each later point adds
  its block's column sums to what the point before left. Point t's block is rows 5000t .. 5000t+4999 of the array, so after
  the last point the double sum is one sum over all 100000 rows, and the output the last point stores is that sum times the
  named reciprocal of the node count.
-/
import proofs.«153876_j4595615007018_1_alg».proof.Proof.KI.MeanPieces
import proofs.«153876_j4595615007018_1_alg».proof.Proof.KI.MeanPayload
import proofs.«153876_j4595615007018_1_alg».proof.Proof.LibBinCount
import Idealize.ShloMosaic.Lib.ValueIdx
import Idealize.ShloMosaic.Lib.Pipeline.Value

set_option maxRecDepth 16384

noncomputable section

namespace Cert.KernelIdeal.Body

open Cert.KernelIdeal Cert.KernelIdeal.Gen Cert.KernelIdeal.MeanPayload
open Idealize.ShloMosaic Idealize.ShloMosaic.TcCoe Idealize.ShloMosaic.ValueIdx Idealize.SL.Sem
open Idealize.ShloMosaic.Pipeline (Dat)

/-! ## Sums over literal shapes -/

/-- Row `p`'s contribution to column `q`: the feature there plus the bias at `q`. -/
def rowTerm (a : S100000x128.Idx → EReal) (b : S1x128.Idx → EReal) (q : Fin 128) (p : Fin (20 * 5000)) : EReal :=
  a (ix2 (⟨p.val, p.isLt⟩ : Fin 100000) q) + b (ix2 (0 : Fin 1) q)

/-- Column `q` summed over the rows of the blocks of points 0..n. -/
def partialSum (a : S100000x128.Idx → EReal) (b : S1x128.Idx → EReal) (q : Fin 128) (n : ℕ) : EReal :=
  ∑ u ∈ Finset.range (n + 1), ∑ r : Fin 5000,
    (if h : u * 5000 + r.val < 20 * 5000 then rowTerm a b q ⟨u * 5000 + r.val, h⟩ else 0)

/-- Column `q` of (features + bias row) summed over all 100000 rows. -/
def colSum (a : S100000x128.Idx → EReal) (b : S1x128.Idx → EReal) (q : Fin 128) : EReal :=
  ∑ n : Fin 100000, (a (ix2 n q) + b (ix2 (0 : Fin 1) q))

/-- One block's column sum of (block + bias row). -/
def blockSum (x0 : S5000x128.Idx → EReal) (x1 : S1x128.Idx → EReal) (q : Fin 128) : EReal :=
  ∑ r : Fin 5000, (x0 (ix2 r q) + x1 (ix2 (0 : Fin 1) q))

/-- The accumulation step at column q, over `blockSum`. -/
theorem pay2_blockSum (xs : Vec Ideal S1x128 .f32) (x0 : Vec Ideal S5000x128 .f32) (x1 : Vec Ideal S1x128 .f32) (q : Fin 128) :
    k2_pay2 xs x0 x1 (ix2 (0 : Fin 1) q) = xs (ix2 (0 : Fin 1) q) + blockSum x0 x1 q := pay2_apply xs x0 x1 q

/-- The double sum over the 20 points and 5000 rows is one sum over all 100000 rows. -/
theorem partialSum_last (a : S100000x128.Idx → EReal) (b : S1x128.Idx → EReal) (q : Fin 128) :
    partialSum a b q 19 = colSum a b q := by
  unfold partialSum
  rw [show (19 : ℕ) + 1 = 20 from rfl, ← Cert.BinCount.sum_runs 20 5000 (rowTerm a b q)]
  rfl

variable (V : (c : Dev nD) → (b : Ref sig .tc) → Buf (Elt Ideal) ((c : Thread nD τ).loc b))

/-! ## The input blocks as rows of the arrays -/

theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = 0 ∧ win2_1.index t 1 = 0 :=
  (by decide +kernel : ∀ t : Fin grid2.N, win2_1.index t 0 = 0 ∧ win2_1.index t 1 = 0)

/-- Point `t`'s block of the aggregated features is rows 5000t … 5000t+4999 of the array. -/
theorem block_rows (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v82 : S100000x128.Idx → Elt Ideal .f32) k := by
  have hi := idx2_0 t
  unfold iblk2
  rw [View.read_apply]
  show V c main_v82 _ = V c main_v82 _
  congr 1
  funext a
  apply Fin.ext
  match a with
  | ⟨0, _⟩ => show win2_0.index t 0 * 5000 + 1 * (x 0).val = (k 0).val; rw [hi.1, hk0]; omega
  | ⟨1, _⟩ => show win2_0.index t 1 * 128 + 1 * (x 1).val = (k 1).val; rw [hi.2, hk1]; omega

/-- Every point's block of the bias row is the whole row. -/
theorem block_bias (c : Dev nD) (t : Fin cfg2.N) (x : S1x128.Idx) :
    (iblk2 V c 1 t : Vec Ideal S1x128 .f32) x = (V c main_v83 : S1x128.Idx → Elt Ideal .f32) x := by
  have hi := idx2_1 t
  unfold iblk2
  rw [View.read_apply]
  show V c main_v83 _ = V c main_v83 _
  congr 1
  funext a
  apply Fin.ext
  match a with
  | ⟨0, _⟩ => show win2_1.index t 0 * 1 + 1 * (x 0).val = (x 0).val; rw [hi.1]; omega
  | ⟨1, _⟩ => show win2_1.index t 1 * 128 + 1 * (x 1).val = (x 1).val; rw [hi.2]; omega

/-! ## The running row -/

/-- One point's column sum of (block + bias row), as a sum of row contributions. -/
theorem step_sum (c : Dev nD) (q : Fin 128) (t : Fin cfg2.N) :
    blockSum (iblk2 V c 0 t) (iblk2 V c 1 t) q
      = ∑ r : Fin 5000, (if h : t.val * 5000 + r.val < 20 * 5000 then rowTerm (V c main_v82) (V c main_v83) q ⟨t.val * 5000 + r.val, h⟩ else 0) := by
  unfold blockSum
  refine Finset.sum_congr rfl fun r _ => ?_
  have hN : t.val < 20 := lt_of_lt_of_eq t.isLt N2_eq
  have hr := r.isLt
  rw [dif_pos (by omega)]
  unfold rowTerm
  congr 1
  · exact block_rows V c t (ix2 r q) _ (by show t.val * 5000 + r.val = 5000 * t.val + r.val; omega) rfl
  · exact block_bias V c t _

/-- The scratch at a later point is the step over the scratch at the point before. -/
theorem scratch_succ (c : Dev nD) (n : ℕ) (hn : n + 1 < cfg2.N) :
    (outsAt2 V c (n + 1) hn).2
      = k2_pay2 (outsAt2 V c n (Nat.lt_of_succ_lt hn)).2 (iblk2 V c 0 ⟨n + 1, hn⟩) (iblk2 V c 1 ⟨n + 1, hn⟩) := by
  by_cases h1 : (n + 1) % 20 = 19
  · rw [show outsAt2 V c (n + 1) hn = _ from outsAt2_C V c ⟨n + 1, hn⟩ (Nat.succ_ne_zero n) h1]
    dsimp only
    rw [soutC_eq]
    rfl
  · rw [show outsAt2 V c (n + 1) hn = _ from outsAt2_B V c ⟨n + 1, hn⟩ (Nat.succ_ne_zero n) h1]
    dsimp only
    rw [soutB_eq]
    rfl

/-- THE FOLD: after point n the scratch at column q is the sum over the rows of the blocks seen so far. -/
theorem acc_eq (c : Dev nD) (q : Fin 128) : ∀ (n : ℕ) (hn : n < cfg2.N),
    (outsAt2 V c n hn).2 (ix2 (0 : Fin 1) q) = partialSum (V c main_v82) (V c main_v83) q n
  | 0, hn => by
    rw [show outsAt2 V c 0 hn = _ from outsAt2_A V c ⟨0, hn⟩ rfl]
    dsimp only
    rw [soutA_eq, pay2_blockSum, pay1_apply, zero_add, step_sum]
    unfold partialSum
    rw [Finset.sum_range_one]
  | n + 1, hn => by
    rw [scratch_succ, pay2_blockSum, acc_eq c q n (Nat.lt_of_succ_lt hn), step_sum]
    unfold partialSum
    rw [Finset.sum_range_succ _ (n + 1)]

/-- What the last point stores in the output block, at column q: the sum over all rows, scaled. -/
theorem mean_out_apply (c : Dev nD) (q : Fin 128) (h19 : 19 < cfg2.N) :
    (outsAt2 V c 19 h19).1 (ix2 (0 : Fin 1) q)
      = colSum (V c main_v82) (V c main_v83) q * Named.named (F := Ideal) κ "inv_100000" (φ := .f32) 0x3727C5AC#32 := by
  have e : (outsAt2 V c 19 h19).1
      = k2_pay3 (outsAt2 V c 19 h19).2 := by
    rw [show outsAt2 V c 19 h19 = _ from outsAt2_C V c ⟨19, h19⟩ (show (19 : ℕ) ≠ 0 by decide) (show (19 : ℕ) % 20 = 19 by decide)]
    dsimp only
    rw [outC_eq, soutC_eq]
  rw [e, pay3_apply, acc_eq V c q 19 h19, partialSum_last]

end Cert.KernelIdeal.Body

end
-- ==== Proof.KI.KernelResult.lean ====
/-
  The kernel program's result is the specification: the second and third regions' own values put
  into the buffer-by-buffer account of the program.
-/
import proofs.«153876_j4595615007018_1_alg».proof.Proof.KI.KernelValue
import proofs.«153876_j4595615007018_1_alg».proof.Proof.KI.ReluProjectValue
import proofs.«153876_j4595615007018_1_alg».proof.Proof.KI.MeanValue

noncomputable section

namespace Cert.KernelIdeal.Body

open Cert.KernelIdeal Cert.KernelIdeal.Gen
open Idealize.ShloMosaic Idealize.ShloMosaic.TcCoe Idealize.SL.Sem
open Idealize.ShloMosaic.ValueIdx (ix1 ix2)
open Cert.GcnSpec (spec)

/-- The second region's product, in this account's spelling. -/
theorem reluRowsByCols_eq (a : S100000x128.Idx → EReal) (b : S1x128.Idx → EReal) (w : S128x128.Idx → EReal) :
    reluRowsByCols a b w = reluProduct a b w := rfl

/-- The third region's column sum, in this account's spelling. -/
theorem colSum_eq (a : S100000x128.Idx → EReal) (b : S1x128.Idx → EReal) (q : Fin 128) :
    colSum a b q = columnSum a b q := rfl

set_option maxRecDepth 16384 in
/-- From any launch contents, the result buffer ends at the specification of the six argument arrays. -/
theorem result_is_spec (m : (ℓ : Loc nD τ sig) → Buf (Elt Ideal) ℓ) (c : Dev nD) :
    W6 (F := Ideal) m c (Proc.devRef .tc main_v85)
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have h1 : (dat1 (F := Ideal) (Vof (W2 m)) c).arrAt 3 cfg1.N
      = reluProduct (W2 m c (Proc.devRef .tc main_v40)) (W2 m c (Proc.devRef .tc main_v41)) (W2 m c (Proc.devRef .tc main_arg4)) :=
    (arr1_eq (Vof (W2 m)) c).trans (reluRowsByCols_eq (W2 m c (Proc.devRef .tc main_v40)) (W2 m c (Proc.devRef .tc main_v41)) (W2 m c (Proc.devRef .tc main_arg4)))
  have h2 : ∀ q : Fin 128, (outsAt2 (Vof (W4 (F := Ideal) m)) c 19 last_lt).1 (ix2 (0 : Fin 1) q)
      = columnSum (W4 m c (Proc.devRef .tc main_v82)) (W4 m c (Proc.devRef .tc main_v83)) q
          * Named.named (F := Ideal) κ "inv_100000" (φ := .f32) 0x3727C5AC#32 := fun q =>
    (mean_out_apply (Vof (W4 m)) c q last_lt).trans
      (congrArg (· * Named.named (F := Ideal) κ "inv_100000" (φ := .f32) 0x3727C5AC#32)
        (colSum_eq (W4 m c (Proc.devRef .tc main_v82)) (W4 m c (Proc.devRef .tc main_v83)) q))
  exact result_is_spec_of m c h1 h2

end Cert.KernelIdeal.Body

end
-- ==== Proof.ReferenceIsSpec.lean ====
/-
  The reference program computes "spec".

  Its 91 operations fall into two copies of the aggregation chain (each the chain "agg" names,
  applied once to x . W1 and once to layer1 . W2) and eleven others: two matrix products, two
  bias rows broadcast and added, a maximum with zero, the sum over the nodes and the quotient by
  100000. The two copies are recognised as "agg" whole, by unfolding names only; the others are
  read at an index, one operation at a time.
-/
import proofs.«153876_j4595615007018_1_alg».proof.Proof.GcnSpec
import proofs.«153876_j4595615007018_1_alg».proof.Proof.Gen.ReferenceIdeal.Read

noncomputable section

namespace Cert.GcnSpec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)

variable {F : FTy → Type} [FloatOps F]

/-- The first copy of the chain is "agg" of the first matrix product. -/
theorem first_aggregation (x0 : Feat F) (x1 : Edges F) (x2 : Weights F) :
    val_main_v40 (F := F) x0 x1 x2 = agg (F := F) (val_main_v0 (F := F) x0 x2) x1 := by
  unfold val_main_v40 val_main_v39 val_main_v38 val_main_cst_6 val_main_v37 val_main_v36 val_main_v35 val_main_v34 val_main_v33 val_main_v32 val_main_v31 val_main_v30 val_main_c_5 val_main_v29 val_main_v28 val_main_c_4 val_main_v27 val_main_v26 val_main_v25 val_main_v24 val_main_v23 val_main_v22 val_main_c_3 val_main_v21 val_main_v20 val_main_c_2 val_main_v19 val_main_v18 val_main_v17 val_main_v16 val_main_v15 val_main_c_1 val_main_v14 val_main_v13 val_main_c val_main_v12 val_main_v11 val_main_v10 val_main_v9 val_main_cst_0 val_main_v8 val_main_cst val_main_v7 val_main_v6 val_main_v5 val_main_v4 val_main_v3 val_main_v2 val_main_v1
  unfold agg norm invSqrtDeg col wrap src dst
  rfl

/-- The second copy of the chain is "agg" of the second matrix product. -/
theorem second_aggregation (x0 : Feat F) (x1 : Edges F) (x2 : Weights F) (x3 : Row F) (x4 : Weights F) :
    val_main_v85 (F := F) x0 x1 x2 x3 x4 = agg (F := F) (val_main_v45 (F := F) x0 x1 x2 x3 x4) x1 := by
  unfold val_main_v85 val_main_v84 val_main_v83 val_main_cst_15 val_main_v82 val_main_v81 val_main_v80 val_main_v79 val_main_v78 val_main_v77 val_main_v76 val_main_v75 val_main_c_14 val_main_v74 val_main_v73 val_main_c_13 val_main_v72 val_main_v71 val_main_v70 val_main_v69 val_main_v68 val_main_v67 val_main_c_12 val_main_v66 val_main_v65 val_main_c_11 val_main_v64 val_main_v63 val_main_v62 val_main_v61 val_main_v60 val_main_c_10 val_main_v59 val_main_v58 val_main_c_9 val_main_v57 val_main_v56 val_main_v55 val_main_v54 val_main_cst_8 val_main_v53 val_main_cst_7 val_main_v52 val_main_v51 val_main_v50 val_main_v49 val_main_v48 val_main_v47 val_main_v46
  unfold agg norm invSqrtDeg col wrap src dst
  rfl

/-- The coordinates a matrix product reads, in the specification's spelling. -/
theorem lidx_eq (i : S100000x128.Idx) (k : Fin 128) : lidx_main_v0 i k = ix2 (i 0) k :=
  funext fun a => match a with | ⟨0, _⟩ => rfl | ⟨1, _⟩ => rfl
theorem ridx_eq (i : S100000x128.Idx) (k : Fin 128) : ridx_main_v0 i k = ix2 k (i 1) :=
  funext fun a => match a with | ⟨0, _⟩ => rfl | ⟨1, _⟩ => rfl
theorem lidx45_eq (i : S100000x128.Idx) (k : Fin 128) : lidx_main_v45 i k = ix2 (i 0) k :=
  funext fun a => match a with | ⟨0, _⟩ => rfl | ⟨1, _⟩ => rfl
theorem ridx45_eq (i : S100000x128.Idx) (k : Fin 128) : ridx_main_v45 i k = ix2 k (i 1) :=
  funext fun a => match a with | ⟨0, _⟩ => rfl | ⟨1, _⟩ => rfl
/-- A bias row broadcast over the nodes is read at the column. -/
theorem bias1_idx (i : S100000x128.Idx) : idx_main_v41 (idx_main_v42 i) = ix1 (i 1) :=
  funext fun a => match a with | ⟨0, _⟩ => rfl
theorem bias2_idx (i : S100000x128.Idx) : idx_main_v86 (idx_main_v87 i) = ix1 (i 1) :=
  funext fun a => match a with | ⟨0, _⟩ => rfl
/-- The sum over the nodes reads row n, column q. -/
theorem sum_idx (q : S128.Idx) (n : Fin 100000) : idx_main_v89 q n = ix2 n (q 0) :=
  funext fun a => match a with | ⟨0, _⟩ => rfl | ⟨1, _⟩ => rfl

/-- x . W1 -/
theorem first_product (x0 : Feat Ideal) (x2 : Weights Ideal) :
    val_main_v0 (F := Ideal) x0 x2 = matmul x0 x2 := by
  funext i
  rw [val_main_v0_apply]
  simp only [lidx_eq, ridx_eq]
  rfl

/-- The first layer. -/
theorem first_layer (x0 : Feat Ideal) (x1 : Edges Ideal) (x2 : Weights Ideal) (x3 : Row Ideal) :
    val_main_v44 (F := Ideal) x0 x1 x2 x3 = layer1 x0 x1 x2 x3 := by
  funext i
  rw [val_main_v44_apply, val_main_v43_apply, val_main_v42_apply, val_main_v41_apply, val_main_call0_v0_apply,
    val_main_call0_cst_apply, first_aggregation, first_product, bias1_idx]
  simp only [Ideal.maximumf_def, Ideal.addf_def, Ideal.ofBits_def, Ideal.ofBits_zero_f32]
  rfl

/-- layer1 . W2 -/
theorem second_product (x0 : Feat Ideal) (x1 : Edges Ideal) (x2 : Weights Ideal) (x3 : Row Ideal) (x4 : Weights Ideal) :
    val_main_v45 (F := Ideal) x0 x1 x2 x3 x4 = matmul (layer1 x0 x1 x2 x3) x4 := by
  funext i
  rw [val_main_v45_apply, first_layer]
  simp only [lidx45_eq, ridx45_eq]
  rfl

/-- The reference's result, as a function of the six argument arrays, is the specification. -/
theorem reference_is_spec (x0 : Feat Ideal) (x1 : Edges Ideal) (x2 : Weights Ideal) (x3 : Row Ideal) (x4 : Weights Ideal) (x5 : Row Ideal) :
    val_main_v91 (F := Ideal) x0 x1 x2 x3 x4 x5 = spec x0 x1 x2 x3 x4 x5 := by
  funext q
  rw [val_main_v91_apply, val_main_v89_apply, val_main_v90_apply, val_main_cst_17_apply, val_main_cst_16_apply]
  have row : ∀ n : Fin 100000, val_main_v88 (F := Ideal) x0 x1 x2 x3 x4 x5 (idx_main_v89 q n)
      = agg (F := Ideal) (matmul (layer1 x0 x1 x2 x3) x4) x1 (ix2 n (q 0)) + x5 (ix1 (q 0)) := by
    intro n
    rw [val_main_v88_apply, val_main_v87_apply, val_main_v86_apply, second_aggregation, second_product, bias2_idx, sum_idx]
    rfl
  simp only [row, Ideal.hostDivf_def, Ideal.ofBits_def, Ideal.ofBits_zero_f32, zero_add]
  rfl

/-- The same, for the term the reference's run leaves in its result buffer. -/
theorem reference_run_is_spec (m : (ℓ : Loc nD τ sig) → Buf (Elt Ideal) ℓ) (c : Dev nD) :
    Cert.ReferenceIdeal.Value.res_main_v91 (F := Ideal) m c
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (val_main_v91_eq (F := Ideal) m c).trans (reference_is_spec _ _ _ _ _ _)

end Cert.GcnSpec

end
-- ==== Proof.lean ====
/-
  The certificate of the two-layer graph convolution with a mean over the nodes: the Pallas program (three kernel regions —
  x·W1 by row blocks; relu(·+b1)·W2 by row blocks; the column mean of (·+b2) accumulated over the row blocks —, with the
  edge gather / scale / scatter-add of each layer on the host between them) against the jnp reference.

  At the ideal values both programs compute  mean_n ( Agg( relu( Agg(x·W1) + b1 ) · W2 ) + b2 )[n, ·],  where Agg is the edge
  aggregation both programs apply by the same host operations (never opened here). They differ in three places, none a
  difference on the extended reals: the kernel's matrix products are tiled by blocks of 5000 rows (a block's rows depend on
  that block's rows only); its final sum over the 100000 rows is accumulated block by block in a running row (addition on the
  extended reals is commutative and associative, so the grouping does not matter, and no input need be finite for it); and it
  multiplies by the named reciprocal 1/100000 where the reference divides by 100000 (one function on every extended real).

  The frames: each kernel region runs its body at every grid point on whole staging buffers, and the host stretches are total;
  the arguments are never written. The reference's frame is its run with the result dropped.
-/
import proofs.«153876_j4595615007018_1_alg».proof.Defs
import proofs.«153876_j4595615007018_1_alg».proof.Proof.Gen.Kernel
import proofs.«153876_j4595615007018_1_alg».proof.Proof.Gen.KernelIdeal
import proofs.«153876_j4595615007018_1_alg».proof.Proof.Gen.ReferenceIdeal
import proofs.«153876_j4595615007018_1_alg».proof.Proof.Gen.ReferenceIdeal.Run
import proofs.«153876_j4595615007018_1_alg».proof.Proof.Gen.ReferenceIdeal.Read
import proofs.«153876_j4595615007018_1_alg».proof.Proof.Gen.Pre_finite_inputs
import proofs.«153876_j4595615007018_1_alg».proof.Proof.KB.KernelRun
import proofs.«153876_j4595615007018_1_alg».proof.Proof.KI.KernelRun
import proofs.«153876_j4595615007018_1_alg».proof.Proof.KI.KernelResult
import proofs.«153876_j4595615007018_1_alg».proof.Proof.ReferenceIsSpec

noncomputable section

namespace Cert.Proof

open Idealize.ShloMosaic Idealize.ShloMosaic.TcCoe Idealize.SL.Sem

/-- The word-level program runs to the end, nothing faulting, its arguments unchanged. -/
theorem frame_k : Cert.frame_Kernel := fun m ρ _ => Cert.Kernel.Body.frame (F := Bits) m ρ

/-- So does the idealized program. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal 9.99999974E-6 is read as the fraction 1/100000 the source
    spells (`1.0 / float(N_NODES)`). -/
theorem preserves : Cert.preserves_Kernel_KernelIdeal :=
  IdealRules.named_const.statement Cert.KernelIdeal.κ "inv_100000" .f32 0x3727C5AC#32 ((1 / 100000 : ℝ) : EReal) rfl

/-- At the ideal values, from memories agreeing on the arguments, both programs end with the same result: the kernel
    program's result buffer is the specification of its arguments (the three regions' arrays and the host stretches between
    them, read one after the other), the reference's run is the same specification of its own, and the arguments agree. -/
theorem algebraic : Cert.algebraic_KernelIdeal_ReferenceIdeal := by
  intro m ρ m' ρ' _ hagree
  refine ⟨fun c => Cert.GcnSpec.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Body.run_all (F := Ideal) m ρ)
    exact ⟨(h c _ (Cert.KernelIdeal.Body.mem_uc Cert.KernelIdeal.main_v85 (by decide))).trans (Cert.KernelIdeal.Body.result_is_spec m c),
      (h c _ (Cert.KernelIdeal.Body.mem_uc Cert.KernelIdeal.main_arg0 (by decide))).trans (Cert.KernelIdeal.Body.W6_main_arg0 m c),
      (h c _ (Cert.KernelIdeal.Body.mem_uc Cert.KernelIdeal.main_arg1 (by decide))).trans (Cert.KernelIdeal.Body.W6_main_arg1 m c),
      (h c _ (Cert.KernelIdeal.Body.mem_uc Cert.KernelIdeal.main_arg2 (by decide))).trans (Cert.KernelIdeal.Body.W6_main_arg2 m c),
      (h c _ (Cert.KernelIdeal.Body.mem_uc Cert.KernelIdeal.main_arg3 (by decide))).trans (Cert.KernelIdeal.Body.W6_main_arg3 m c),
      (h c _ (Cert.KernelIdeal.Body.mem_uc Cert.KernelIdeal.main_arg4 (by decide))).trans (Cert.KernelIdeal.Body.W6_main_arg4 m c),
      (h c _ (Cert.KernelIdeal.Body.mem_uc Cert.KernelIdeal.main_arg5 (by decide))).trans (Cert.KernelIdeal.Body.W6_main_arg5 m c)⟩
  · refine (θ_run Cert.ReferenceIdeal.defs _ _).mono (fun r h c => ⟨?_, (h c).2⟩) (Cert.ReferenceIdeal.Value.run (F := Ideal) m' ρ')
    obtain ⟨h0, h1, h2, h3, h4, h5⟩ := hagree c
    rw [(h c).1, Cert.GcnSpec.reference_run_is_spec, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
